-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v51)) (v3 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_v66) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x6 : Shape := ⟨2, ![65536, 6]⟩
abbrev S8388608 : Shape := ⟨1, ![8388608]⟩
abbrev S_ : Shape := ⟨0, ![]⟩

class Facts : Prop where
  bcast_S_S65536x6 : S_.BroadcastsInDim S65536x6 (![] : Fin 0 → Fin S65536x6.rank)
  reducesTo_S65536x6_S_d0_1 : S65536x6.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S65536x6 .f32) (main_arg1 : IVec S8388608 32) (main_arg2 : FVec F S8388608 .f32) (main_arg3 : FVec F S8388608 .f32) : IVec S_ 1 :=
  let main_v0 : FVec F S65536x6 .f32 := Host.absf main_arg0
  let main_cst : FVec F S_ .f32 := constant S_ .f32 0x7F800000#32
  let main_v1 : FVec F S65536x6 .f32 := broadcastInDim S65536x6 ![] bcast_S_S65536x6 main_cst
  let main_v2 : IVec S65536x6 1 := cmpf .olt main_v0 main_v1
  let main_c : IVec S_ 1 := constantI S_ 1 1#1
  let main_v3 : IVec S_ 1 := (fun x v => Host.reduce IntOp.andi x v reducesTo_S65536x6_S_d0_1 h_S_) main_v2 main_c
  let main_v4 : FVec F S8388608 .f32 := Host.absf main_arg2
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608 .f32 := Host.absf main_arg3
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  main_v13
-- ==== Kernel.lean ====
abbrev S65536x6 : Shape := ⟨2, ![65536, 6]⟩
abbrev S8388608 : Shape := ⟨1, ![8388608]⟩
abbrev S_ : Shape := ⟨0, ![]⟩
abbrev S8388608x1 : Shape := ⟨2, ![8388608, 1]⟩
abbrev S8388608x6 : Shape := ⟨2, ![8388608, 6]⟩
abbrev S8388608x2 : Shape := ⟨2, ![8388608, 2]⟩
abbrev S8388608x4 : Shape := ⟨2, ![8388608, 4]⟩
abbrev S4096x6 : Shape := ⟨2, ![4096, 6]⟩
abbrev S4096x2 : Shape := ⟨2, ![4096, 2]⟩
abbrev S4096x4 : Shape := ⟨2, ![4096, 4]⟩
abbrev S4096x1 : Shape := ⟨2, ![4096, 1]⟩
abbrev S4096x3 : Shape := ⟨2, ![4096, 3]⟩
abbrev S65536 : Shape := ⟨1, ![65536]⟩
abbrev S65536x1 : Shape := ⟨2, ![65536, 1]⟩
abbrev S65536x256 : Shape := ⟨2, ![65536, 256]⟩
abbrev S8192x1 : Shape := ⟨2, ![8192, 1]⟩
abbrev S8192x256 : Shape := ⟨2, ![8192, 256]⟩

abbrev nBuf : Space → Nat
  | .hbm => 92
  | .vmem => 12
  | .smem => 0
  | _ => 0

abbrev bufTy : (tb : Table) → Fin (tcTables nBuf tb) → BufTy
  | .hbm, ⟨0, _⟩ => ⟨S65536x6, .f32⟩
  | .hbm, ⟨1, _⟩ => ⟨S8388608, .i32⟩
  | .hbm, ⟨2, _⟩ => ⟨S8388608, .f32⟩
  | .hbm, ⟨3, _⟩ => ⟨S8388608, .f32⟩
  | .hbm, ⟨4, _⟩ => ⟨S_, .i32⟩
  | .hbm, ⟨5, _⟩ => ⟨S8388608, .i32⟩
  | .hbm, ⟨6, _⟩ => ⟨S8388608, .i1⟩
  | .hbm, ⟨7, _⟩ => ⟨S_, .i32⟩
  | .hbm, ⟨8, _⟩ => ⟨S8388608, .i32⟩
  | .hbm, ⟨9, _⟩ => ⟨S8388608, .i32⟩
  | .hbm, ⟨10, _⟩ => ⟨S8388608, .i32⟩
  | .hbm, ⟨11, _⟩ => ⟨S8388608x1, .i32⟩
  | .hbm, ⟨12, _⟩ => ⟨S8388608x6, .f32⟩
  | .hbm, ⟨13, _⟩ => ⟨S8388608x1, .f32⟩
  | .hbm, ⟨14, _⟩ => ⟨S8388608x1, .f32⟩
  | .hbm, ⟨15, _⟩ => ⟨S8388608x2, .f32⟩
  | .hbm, ⟨16, _⟩ => ⟨S8388608x4, .f32⟩
  | .hbm, ⟨17, _⟩ => ⟨S8388608x2, .f32⟩
  | .hbm, ⟨18, _⟩ => ⟨S8388608x1, .f32⟩
  | .hbm, ⟨19, _⟩ => ⟨S8388608, .f32⟩
  | .hbm, ⟨20, _⟩ => ⟨S8388608x1, .f32⟩
  | .hbm, ⟨21, _⟩ => ⟨S8388608, .f32⟩
  | .hbm, ⟨22, _⟩ => ⟨S_, .i32⟩
  | .hbm, ⟨23, _⟩ => ⟨S8388608, .i32⟩
  | .hbm, ⟨24, _⟩ => ⟨S_, .i32⟩
  | .hbm, ⟨25, _⟩ => ⟨S65536, .i32⟩
  | .hbm, ⟨26, _⟩ => ⟨S8388608x1, .i32⟩
  | .hbm, ⟨27, _⟩ => ⟨S65536, .i32⟩
  | .hbm, ⟨28, _⟩ => ⟨S_, .i32⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S8388608, .i32⟩
  | .hbm, ⟨33, _⟩ => ⟨S_, .i32⟩
  | .hbm, ⟨34, _⟩ => ⟨S8388608, .i32⟩
  | .hbm, ⟨35, _⟩ => ⟨S8388608, .i1⟩
  | .hbm, ⟨36, _⟩ => ⟨S_, .i32⟩
  | .hbm, ⟨37, _⟩ => ⟨S8388608, .i32⟩
  | .hbm, ⟨38, _⟩ => ⟨S8388608, .i32⟩
  | .hbm, ⟨39, _⟩ => ⟨S8388608, .i32⟩
  | .hbm, ⟨40, _⟩ => ⟨S8388608x1, .i32⟩
  | .hbm, ⟨41, _⟩ => ⟨S8388608, .i32⟩
  | .hbm, ⟨42, _⟩ => ⟨S8388608, .i32⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536x1, .i32⟩
  | .hbm, ⟨47, _⟩ => ⟨S65536x256, .i32⟩
  | .hbm, ⟨48, _⟩ => ⟨S_, .i32⟩
  | .hbm, ⟨49, _⟩ => ⟨S65536x256, .i32⟩
  | .hbm, ⟨50, _⟩ => ⟨S65536x256, .i1⟩
  | .hbm, ⟨51, _⟩ => ⟨S65536x256, .i1⟩
  | .hbm, ⟨52, _⟩ => ⟨S_, .f32⟩
  | .hbm, ⟨53, _⟩ => ⟨S65536x256, .f32⟩
  | .hbm, ⟨54, _⟩ => ⟨S_, .i32⟩
  | .hbm, ⟨55, _⟩ => ⟨S8388608, .i32⟩
  | .hbm, ⟨56, _⟩ => ⟨S8388608, .i1⟩
  | .hbm, ⟨57, _⟩ => ⟨S_, .i32⟩
  | .hbm, ⟨58, _⟩ => ⟨S8388608, .i32⟩
  | .hbm, ⟨59, _⟩ => ⟨S8388608, .i32⟩
  | .hbm, ⟨60, _⟩ => ⟨S8388608, .i32⟩
  | .hbm, ⟨61, _⟩ => ⟨S_, .i32⟩
  | .hbm, ⟨62, _⟩ => ⟨S8388608, .i32⟩
  | .hbm, ⟨63, _⟩ => ⟨S8388608, .i1⟩
  | .hbm, ⟨64, _⟩ => ⟨S_, .i32⟩
  | .hbm, ⟨65, _⟩ => ⟨S8388608, .i32⟩
  | .hbm, ⟨66, _⟩ => ⟨S8388608, .i32⟩
  | .hbm, ⟨67, _⟩ => ⟨S8388608, .i32⟩
  | .hbm, ⟨68, _⟩ => ⟨S8388608x1, .i32⟩
  | .hbm, ⟨69, _⟩ => ⟨S8388608x1, .i32⟩
  | .hbm, ⟨70, _⟩ => ⟨S8388608x2, .i32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S_, .i32⟩
  | .hbm, ⟨75, _⟩ => ⟨S8388608, .i32⟩
  | .hbm, ⟨76, _⟩ => ⟨S8388608, .i1⟩
  | .hbm, ⟨77, _⟩ => ⟨S_, .i32⟩
  | .hbm, ⟨78, _⟩ => ⟨S8388608, .i32⟩
  | .hbm, ⟨79, _⟩ => ⟨S8388608, .i32⟩
  | .hbm, ⟨80, _⟩ => ⟨S8388608, .i32⟩
  | .hbm, ⟨81, _⟩ => ⟨S_, .i32⟩
  | .hbm, ⟨82, _⟩ => ⟨S8388608, .i32⟩
  | .hbm, ⟨83, _⟩ => ⟨S8388608, .i1⟩
  | .hbm, ⟨84, _⟩ => ⟨S_, .i32⟩
  | .hbm, ⟨85, _⟩ => ⟨S8388608, .i32⟩
  | .hbm, ⟨86, _⟩ => ⟨S8388608, .i32⟩
  | .hbm, ⟨87, _⟩ => ⟨S8388608, .i32⟩
  | .hbm, ⟨88, _⟩ => ⟨S8388608x1, .i32⟩
  | .hbm, ⟨89, _⟩ => ⟨S8388608x1, .i32⟩
  | .hbm, ⟨90, _⟩ => ⟨S8388608x2, .i32⟩
  | .hbm, ⟨91, _⟩ => ⟨S65536x256, .f32⟩
  | .local _ .vmem, ⟨0, _⟩ => ⟨S4096x6, .f32⟩
  | .local _ .vmem, ⟨1, _⟩ => ⟨S4096x6, .f32⟩
  | .local _ .vmem, ⟨2, _⟩ => ⟨S4096x2, .f32⟩
  | .local _ .vmem, ⟨3, _⟩ => ⟨S4096x2, .f32⟩
  | .local _ .vmem, ⟨4, _⟩ => ⟨S4096x4, .f32⟩
  | .local _ .vmem, ⟨5, _⟩ => ⟨S4096x4, .f32⟩
  | .local _ .vmem, ⟨6, _⟩ => ⟨S4096x2, .f32⟩
  | .local _ .vmem, ⟨7, _⟩ => ⟨S4096x2, .f32⟩
  | .local _ .vmem, ⟨8, _⟩ => ⟨S8192x1, .i32⟩
  | .local _ .vmem, ⟨9, _⟩ => ⟨S8192x1, .i32⟩
  | .local _ .vmem, ⟨10, _⟩ => ⟨S8192x256, .i32⟩
  | .local _ .vmem, ⟨11, _⟩ => ⟨S8192x256, .i32⟩
  | _, _ => ⟨S65536x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_call0_c : Ref sig .tc := ⟨.hbm, 28, rfl⟩
abbrev main_call0_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_14 : Ref sig .tc := ⟨.hbm, 81, rfl⟩
abbrev main_v58 : Ref sig .tc := ⟨.hbm, 82, rfl⟩
abbrev main_v59 : Ref sig .tc := ⟨.hbm, 83, rfl⟩
abbrev main_c_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S4096x2_o0_0_S4096x1 : S4096x2.Slices ![0, 0] S4096x1
  slices_S4096x2_o0_1_S4096x1 : S4096x2.Slices ![0, 1] S4096x1
  slices_S4096x6_o0_0_S4096x3 : S4096x6.Slices ![0, 0] S4096x3
  slices_S4096x6_o0_3_S4096x3 : S4096x6.Slices ![0, 3] S4096x3
  broadcasts_S4096x1_S4096x3 : S4096x1.Broadcasts S4096x3
  inb_S4096x4_S4096x3_0_0 : ∀ a, (![0, 0] : Fin 2 → Nat) a + S4096x3.size a ≤ S4096x4.size a
  h_S4096x3 : 0 < S4096x3.numel
  inb_S4096x4_S4096x1_0_3 : ∀ a, (![0, 3] : Fin 2 → Nat) a + S4096x1.size a ≤ S4096x4.size a
  h_S4096x1 : 0 < S4096x1.numel
  inb_S4096x2_S4096x1_0_0 : ∀ a, (![0, 0] : Fin 2 → Nat) a + S4096x1.size a ≤ S4096x2.size a
  inb_S4096x2_S4096x1_0_1 : ∀ a, (![0, 1] : Fin 2 → Nat) a + S4096x1.size a ≤ S4096x2.size a
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S65536 : S_.BroadcastsInDim S65536 (![] : Fin 0 → Fin S65536.rank)
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  shapeCasts_S65536_S65536x1 : S65536.ShapeCasts S65536x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x256_d1_w32 : S8192x256.Iotas .tc 32 [1]
  broadcasts_S8192x1_S8192x256 : S8192x1.Broadcasts S8192x256
  inb_S8192x256_S8192x256_0_0 : ∀ a, (![0, 0] : Fin 2 → Nat) a + S8192x256.size a ≤ S8192x256.size a
  h_S8192x256 : 0 < S8192x256.numel
  natLt_1_32 : 1 < 32
  bcast_S_S65536x256 : S_.BroadcastsInDim S65536x256 (![] : Fin 0 → Fin S65536x256.rank)
  gather_S65536x6_S8388608x1_S8388608x6_1_0_n_n_0_1_16_wf : GatherDims.WF S65536x6 S8388608x1 S8388608x6 [1] [0] [] [0] [] 1 ![1, 6]
  scatter_S65536_S8388608x1_S8388608_n_0_0_1_wf : ScatterDims.WF S65536 S8388608x1 S8388608 [] [0] [0] 1
  gather_S65536_S8388608x1_S8388608_n_0_n_n_0_1_1_wf : GatherDims.WF S65536 S8388608x1 S8388608 [] [0] [] [0] [] 1 ![1]
  scatter_S65536x256_S8388608x2_S8388608_n_01_01_1_wf : ScatterDims.WF S65536x256 S8388608x2 S8388608 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S8388608x6.size a
  hwx0_0 : ∀ i : grid0.Coords, EltTy.bits .f32 = 32 ∨ (Rect.block (s := S8388608x6) S4096x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S8388608x2.size a
  hwx0_1 : ∀ i : grid0.Coords, EltTy.bits .f32 = 32 ∨ (Rect.block (s := S8388608x2) S4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S8388608x4.size a
  hwx0_2 : ∀ i : grid0.Coords, EltTy.bits .f32 = 32 ∨ (Rect.block (s := S8388608x4) S4096x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S8388608x2.size a
  hwx0_3 : ∀ i : grid0.Coords, EltTy.bits .f32 = 32 ∨ (Rect.block (s := S8388608x2) S4096x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S65536x1.size a
  hwx1_0 : ∀ i : grid1.Coords, EltTy.bits .i32 = 32 ∨ (Rect.block (s := S65536x1) S8192x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S65536x256.size a
  hwx1_1 : ∀ i : grid1.Coords, EltTy.bits .i32 = 32 ∨ (Rect.block (s := S65536x256) S8192x256.size (cc1_transform_1 i) (hinb1_1 i)).WholeWords (EltTy.packing .i32)

variable [Facts₀]

def gather_S65536x6_S8388608x1_S8388608x6_1_0_n_n_0_1_16 : GatherDims S65536x6 S8388608x1 S8388608x6 where
  offsetDims := [1]
  collapsedSliceDims := [0]
  operandBatchingDims := []
  startIndicesBatchingDims := []
  startIndexMap := [0]
  indexVectorDim := 1
  sliceSizes := ![1, 6]
  wf := gather_S65536x6_S8388608x1_S8388608x6_1_0_n_n_0_1_16_wf
def scatter_S65536_S8388608x1_S8388608_n_0_0_1 : ScatterDims S65536 S8388608x1 S8388608 where
  updateWindowDims := []
  insertedWindowDims := [0]
  scatterDimsToOperandDims := [0]
  indexVectorDim := 1
  wf := scatter_S65536_S8388608x1_S8388608_n_0_0_1_wf
def gather_S65536_S8388608x1_S8388608_n_0_n_n_0_1_1 : GatherDims S65536 S8388608x1 S8388608 where
  offsetDims := []
  collapsedSliceDims := [0]
  operandBatchingDims := []
  startIndicesBatchingDims := []
  startIndexMap := [0]
  indexVectorDim := 1
  sliceSizes := ![1]
  wf := gather_S65536_S8388608x1_S8388608_n_0_n_n_0_1_1_wf
def scatter_S65536x256_S8388608x2_S8388608_n_01_01_1 : ScatterDims S65536x256 S8388608x2 S8388608 where
  updateWindowDims := []
  insertedWindowDims := [0, 1]
  scatterDimsToOperandDims := [0, 1]
  indexVectorDim := 1
  wf := scatter_S65536x256_S8388608x2_S8388608_n_01_01_1_wf

abbrev win0_0 : Pipeline.Window sig grid0 :=
  Pipeline.Window.ofSpec (Memref.whole main_v6) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S4096x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S4096x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8192x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S65536x6 : Shape := ⟨2, ![65536, 6]⟩
abbrev S8388608 : Shape := ⟨1, ![8388608]⟩
abbrev S65536x3 : Shape := ⟨2, ![65536, 3]⟩
abbrev S_ : Shape := ⟨0, ![]⟩
abbrev S8388608x1 : Shape := ⟨2, ![8388608, 1]⟩
abbrev S8388608x3 : Shape := ⟨2, ![8388608, 3]⟩
abbrev S8388608x4 : Shape := ⟨2, ![8388608, 4]⟩
abbrev S65536 : Shape := ⟨1, ![65536]⟩
abbrev S256 : Shape := ⟨1, ![256]⟩
abbrev S1x256 : Shape := ⟨2, ![1, 256]⟩
abbrev S65536x1 : Shape := ⟨2, ![65536, 1]⟩
abbrev S65536x256 : Shape := ⟨2, ![65536, 256]⟩
abbrev S8388608x2 : Shape := ⟨2, ![8388608, 2]⟩

abbrev nBuf : Space → Nat
  | .hbm => 106
  | .vmem => 0
  | .smem => 0
  | _ => 0

abbrev bufTy : (tb : Table) → Fin (tcTables nBuf tb) → BufTy
  | .hbm, ⟨0, _⟩ => ⟨S65536x6, .f32⟩
  | .hbm, ⟨1, _⟩ => ⟨S8388608, .i32⟩
  | .hbm, ⟨2, _⟩ => ⟨S8388608, .f32⟩
  | .hbm, ⟨3, _⟩ => ⟨S8388608, .f32⟩
  | .hbm, ⟨4, _⟩ => ⟨S65536x3, .f32⟩
  | .hbm, ⟨5, _⟩ => ⟨S65536x3, .f32⟩
  | .hbm, ⟨6, _⟩ => ⟨S8388608, .f32⟩
  | .hbm, ⟨7, _⟩ => ⟨S_, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S8388608x3, .f32⟩
  | .hbm, ⟨20, _⟩ => ⟨S8388608x1, .f32⟩
  | .hbm, ⟨21, _⟩ => ⟨S_, .i32⟩
  | .hbm, ⟨22, _⟩ => ⟨S8388608, .i32⟩
  | .hbm, ⟨23, _⟩ => ⟨S8388608, .i1⟩
  | .hbm, ⟨24, _⟩ => ⟨S_, .i32⟩
  | .hbm, ⟨25, _⟩ => ⟨S8388608, .i32⟩
  | .hbm, ⟨26, _⟩ => ⟨S8388608, .i32⟩
  | .hbm, ⟨27, _⟩ => ⟨S8388608, .i32⟩
  | .hbm, ⟨28, _⟩ => ⟨S8388608x1, .i32⟩
  | .hbm, ⟨29, _⟩ => ⟨S8388608x3, .f32⟩
  | .hbm, ⟨30, _⟩ => ⟨S8388608x3, .f32⟩
  | .hbm, ⟨31, _⟩ => ⟨S8388608x3, .f32⟩
  | .hbm, ⟨32, _⟩ => ⟨S8388608x3, .f32⟩
  | .hbm, ⟨33, _⟩ => ⟨S_, .f32⟩
  | .hbm, ⟨34, _⟩ => ⟨S8388608x1, .f32⟩
  | .hbm, ⟨35, _⟩ => ⟨S8388608x4, .f32⟩
  | .hbm, ⟨36, _⟩ => ⟨S_, .i32⟩
  | .hbm, ⟨37, _⟩ => ⟨S8388608, .i32⟩
  | .hbm, ⟨38, _⟩ => ⟨S_, .i32⟩
  | .hbm, ⟨39, _⟩ => ⟨S65536, .i32⟩
  | .hbm, ⟨40, _⟩ => ⟨S8388608x1, .i32⟩
  | .hbm, ⟨41, _⟩ => ⟨S65536, .i32⟩
  | .hbm, ⟨42, _⟩ => ⟨S_, .i32⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S8388608, .i32⟩
  | .hbm, ⟨47, _⟩ => ⟨S_, .i32⟩
  | .hbm, ⟨48, _⟩ => ⟨S8388608, .i32⟩
  | .hbm, ⟨49, _⟩ => ⟨S8388608, .i1⟩
  | .hbm, ⟨50, _⟩ => ⟨S_, .i32⟩
  | .hbm, ⟨51, _⟩ => ⟨S8388608, .i32⟩
  | .hbm, ⟨52, _⟩ => ⟨S8388608, .i32⟩
  | .hbm, ⟨53, _⟩ => ⟨S8388608, .i32⟩
  | .hbm, ⟨54, _⟩ => ⟨S8388608x1, .i32⟩
  | .hbm, ⟨55, _⟩ => ⟨S8388608, .i32⟩
  | .hbm, ⟨56, _⟩ => ⟨S8388608, .i32⟩
  | .hbm, ⟨57, _⟩ => ⟨S_, .i32⟩
  | .hbm, ⟨58, _⟩ => ⟨S65536, .i32⟩
  | .hbm, ⟨59, _⟩ => ⟨S65536, .i32⟩
  | .hbm, ⟨60, _⟩ => ⟨S256, .i32⟩
  | .hbm, ⟨61, _⟩ => ⟨S1x256, .i32⟩
  | .hbm, ⟨62, _⟩ => ⟨S65536x1, .i32⟩
  | .hbm, ⟨63, _⟩ => ⟨S65536x256, .i32⟩
  | .hbm, ⟨64, _⟩ => ⟨S65536x256, .i32⟩
  | .hbm, ⟨65, _⟩ => ⟨S65536x256, .i1⟩
  | .hbm, ⟨66, _⟩ => ⟨S_, .f32⟩
  | .hbm, ⟨67, _⟩ => ⟨S65536x256, .f32⟩
  | .hbm, ⟨68, _⟩ => ⟨S_, .i32⟩
  | .hbm, ⟨69, _⟩ => ⟨S8388608, .i32⟩
  | .hbm, ⟨70, _⟩ => ⟨S8388608, .i1⟩
  | .hbm, ⟨71, _⟩ => ⟨S_, .i32⟩
  | .hbm, ⟨72, _⟩ => ⟨S8388608, .i32⟩
  | .hbm, ⟨73, _⟩ => ⟨S8388608, .i32⟩
  | .hbm, ⟨74, _⟩ => ⟨S8388608, .i32⟩
  | .hbm, ⟨75, _⟩ => ⟨S_, .i32⟩
  | .hbm, ⟨76, _⟩ => ⟨S8388608, .i32⟩
  | .hbm, ⟨77, _⟩ => ⟨S8388608, .i1⟩
  | .hbm, ⟨78, _⟩ => ⟨S_, .i32⟩
  | .hbm, ⟨79, _⟩ => ⟨S8388608, .i32⟩
  | .hbm, ⟨80, _⟩ => ⟨S8388608, .i32⟩
  | .hbm, ⟨81, _⟩ => ⟨S8388608, .i32⟩
  | .hbm, ⟨82, _⟩ => ⟨S8388608x1, .i32⟩
  | .hbm, ⟨83, _⟩ => ⟨S8388608x1, .i32⟩
  | .hbm, ⟨84, _⟩ => ⟨S8388608x2, .i32⟩
  | .hbm, ⟨85, _⟩ => ⟨S65536x256, .f32⟩
  | .hbm, ⟨86, _⟩ => ⟨S_, .f32⟩
  | .hbm, ⟨87, _⟩ => ⟨S65536x256, .f32⟩
  | .hbm, ⟨88, _⟩ => ⟨S_, .i32⟩
  | .hbm, ⟨89, _⟩ => ⟨S8388608, .i32⟩
  | .hbm, ⟨90, _⟩ => ⟨S8388608, .i1⟩
  | .hbm, ⟨91, _⟩ => ⟨S_, .i32⟩
  | .hbm, ⟨92, _⟩ => ⟨S8388608, .i32⟩
  | .hbm, ⟨93, _⟩ => ⟨S8388608, .i32⟩
  | .hbm, ⟨94, _⟩ => ⟨S8388608, .i32⟩
  | .hbm, ⟨95, _⟩ => ⟨S_, .i32⟩
  | .hbm, ⟨96, _⟩ => ⟨S8388608, .i32⟩
  | .hbm, ⟨97, _⟩ => ⟨S8388608, .i1⟩
  | .hbm, ⟨98, _⟩ => ⟨S_, .i32⟩
  | .hbm, ⟨99, _⟩ => ⟨S8388608, .i32⟩
  | .hbm, ⟨100, _⟩ => ⟨S8388608, .i32⟩
  | .hbm, ⟨101, _⟩ => ⟨S8388608, .i32⟩
  | .hbm, ⟨102, _⟩ => ⟨S8388608x1, .i32⟩
  | .hbm, ⟨103, _⟩ => ⟨S8388608x1, .i32⟩
  | .hbm, ⟨104, _⟩ => ⟨S8388608x2, .i32⟩
  | .hbm, ⟨105, _⟩ => ⟨S65536x256, .f32⟩
  | _, _ => ⟨S65536x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_call0_c : Ref sig .tc := ⟨.hbm, 42, rfl⟩
abbrev main_call0_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_c_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_c_18 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  slices_S65536x6_S65536x3_0_0 : S65536x6.Slices ![0, 0] S65536x3
  slices_S65536x6_S65536x3_0_3 : S65536x6.Slices ![0, 3] S65536x3
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S_S8388608x1 : S_.BroadcastsInDim S8388608x1 (![] : Fin 0 → Fin S8388608x1.rank)
  concatenates_S8388608x3_S8388608x1_S8388608x4_d1 : Shape.Concatenates [S8388608x3, S8388608x1] S8388608x4 1
  bcast_S_S65536 : S_.BroadcastsInDim S65536 (![] : Fin 0 → Fin S65536.rank)
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  bcast_S256_S1x256_1 : S256.BroadcastsInDim S1x256 (![1] : Fin 1 → Fin S1x256.rank)
  bcast_S65536_S65536x1_0 : S65536.BroadcastsInDim S65536x1 (![0] : Fin 1 → Fin S65536x1.rank)
  bcast_S1x256_S65536x256_0_1 : S1x256.BroadcastsInDim S65536x256 (![0, 1] : Fin 2 → Fin S65536x256.rank)
  bcast_S65536x1_S65536x256_0_1 : S65536x1.BroadcastsInDim S65536x256 (![0, 1] : Fin 2 → Fin S65536x256.rank)
  bcast_S_S65536x256 : S_.BroadcastsInDim S65536x256 (![] : Fin 0 → Fin S65536x256.rank)
  concatenates_S8388608x1_S8388608x1_S8388608x2_d1 : Shape.Concatenates [S8388608x1, S8388608x1] S8388608x2 1
  gather_S65536x3_S8388608x1_S8388608x3_1_0_n_n_0_1_13_wf : GatherDims.WF S65536x3 S8388608x1 S8388608x3 [1] [0] [] [0] [] 1 ![1, 3]
  scatter_S65536_S8388608x1_S8388608_n_0_0_1_wf : ScatterDims.WF S65536 S8388608x1 S8388608 [] [0] [0] 1
  gather_S65536_S8388608x1_S8388608_n_0_n_n_0_1_1_wf : GatherDims.WF S65536 S8388608x1 S8388608 [] [0] [] [0] [] 1 ![1]
  scatter_S65536x256_S8388608x2_S8388608_n_01_01_1_wf : ScatterDims.WF S65536x256 S8388608x2 S8388608 [] [0, 1] [0, 1] 1

variable [Facts₀]

def gather_S65536x3_S8388608x1_S8388608x3_1_0_n_n_0_1_13 : GatherDims S65536x3 S8388608x1 S8388608x3 where
  offsetDims := [1]
  collapsedSliceDims := [0]
  operandBatchingDims := []
  startIndicesBatchingDims := []
  startIndexMap := [0]
  indexVectorDim := 1
  sliceSizes := ![1, 3]
  wf := gather_S65536x3_S8388608x1_S8388608x3_1_0_n_n_0_1_13_wf
def scatter_S65536_S8388608x1_S8388608_n_0_0_1 : ScatterDims S65536 S8388608x1 S8388608 where
  updateWindowDims := []
  insertedWindowDims := [0]
  scatterDimsToOperandDims := [0]
  indexVectorDim := 1
  wf := scatter_S65536_S8388608x1_S8388608_n_0_0_1_wf
def gather_S65536_S8388608x1_S8388608_n_0_n_n_0_1_1 : GatherDims S65536 S8388608x1 S8388608 where
  offsetDims := []
  collapsedSliceDims := [0]
  operandBatchingDims := []
  startIndicesBatchingDims := []
  startIndexMap := [0]
  indexVectorDim := 1
  sliceSizes := ![1]
  wf := gather_S65536_S8388608x1_S8388608_n_0_n_n_0_1_1_wf
def scatter_S65536x256_S8388608x2_S8388608_n_01_01_1 : ScatterDims S65536x256 S8388608x2 S8388608 where
  updateWindowDims := []
  insertedWindowDims := [0, 1]
  scatterDimsToOperandDims := [0, 1]
  indexVectorDim := 1
  wf := scatter_S65536x256_S8388608x2_S8388608_n_01_01_1_wf

class Facts : Prop extends Facts₀ where

variable [Facts]
-- ==== Proof.KernelRun.lean ====
/-
  The run of the idealized kernel program with its four results named.

  The program is a line of host operations, the first tiled region (positions and midpoints of the samples),
  more host operations (the per-ray counts, their running totals, the slot of each sample), the second tiled
  region (the validity mask), and a last line of host operations (the two scatters).  Every weakly fair
  execution terminates, and at the end every buffer the program does not scope holds what the last segment
  boundary's contents say: the fold of the host operations and of the two regions' write-backs over the launch
  memory.  Here that is read at the four result buffers and at the four arguments.
-/
import proofs.«176005_j39625368272911_1_alg».proof.Proof.Gen.KernelIdeal.Frame

set_option maxRecDepth 16384

noncomputable section

namespace Cert.KernelIdeal.RunVals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each of the four result buffers ends at
    the last boundary's contents there, and the four argument arrays end as launched. -/
theorem run_vals : θ_run defs (onTc (τ := τ) (main (F := F))) ⟨m, fun _ => 0, ρ⟩ (fun r => ∀ c : Dev nD,
      r.2.mem ((c.tc : Thread nD τ).loc main_v10_0) = W7 m ρ c (Proc.devRef .tc main_v10_0)
      ∧ r.2.mem ((c.tc : Thread nD τ).loc main_v36) = W7 m ρ c (Proc.devRef .tc main_v36)
      ∧ r.2.mem ((c.tc : Thread nD τ).loc main_v51) = W7 m ρ c (Proc.devRef .tc main_v51)
      ∧ r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10_0 (by decide)),
       h c _ (mem_uc main_v36 (by decide)),
       h c _ (mem_uc main_v51 (by decide)),
       h c _ (mem_uc main_v66 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.RunVals

end
-- ==== Proof.KernelVals.lean ====
/-
  What the idealized kernel program's buffers hold at its segment boundaries, as functions of the four arguments.

  From the ray index of every sample (the second argument) the host computes, in integers: the index wrapped into
  range (a negative index counts from the end), the number of samples of each ray (a scatter-add of ones), the
  running totals of those counts (a windowed sum) and from them the first sample of each ray, the slot of each sample
  within its ray (its position minus its ray's first sample), that slot wrapped, the pair (ray, slot) for each sample,
  and the number of valid slots of each ray (the count, at most 256).  The floats enter twice: the rows of the ray table
  gathered per sample with the two distance columns laid side by side feed the first region, and its second result,
  column by column, is scattered at the (ray, slot) pairs.
-/
import proofs.«176005_j39625368272911_1_alg».proof.Proof.Gen.KernelIdeal.Frame
import Idealize.ShloMosaic.Lib.StableHlo.Run

set_option maxRecDepth 16384

noncomputable section

namespace Cert.KernelIdeal.Vals

open Cert.KernelIdeal Cert.KernelIdeal.Gen
open Idealize.ShloMosaic Idealize.ShloMosaic.TcCoe Idealize.ShloMosaic.StableHlo

variable {F : FTy → Type} [FloatOps F]

/-! ## The integer bookkeeping, as functions of the ray index of every sample -/

/-- A ray index wrapped into range: a negative one counts from the end. -/
def wrapRay (a1 : IVec S8388608 32) : IVec S8388608 32 :=
  select (cmpi .slt a1 (broadcastInDim S8388608 ![] bcast_S_S8388608 (constantI S_ 32 0#32)))
    (addi a1 (broadcastInDim S8388608 ![] bcast_S_S8388608 (constantI S_ 32 65536#32))) a1

/-- The wrapped ray indices as a column. -/
def rayCol (a1 : IVec S8388608 32) : IVec S8388608x1 32 :=
  broadcastInDim S8388608x1 ![0] bcast_S8388608_S8388608x1_0 (wrapRay a1)

/-- The number of samples of each ray: ones scatter-added at the ray indices. -/
def counts (a1 : IVec S8388608 32) : IVec S65536 32 :=
  Host.scatter scatter_S65536_S8388608x1_S8388608_n_0_0_1 IntOp.addi
    (broadcastInDim S65536 ![] bcast_S_S65536 (constantI S_ 32 0#32))
    (broadcastInDim S8388608x1 ![0] bcast_S8388608_S8388608x1_0 a1)
    (broadcastInDim S8388608 ![] bcast_S_S8388608 (constantI S_ 32 1#32))

/-- The running totals of a table of counts. -/
def totalsOf (cnt : IVec S65536 32) : IVec S65536 32 :=
  Host.reduceWindow IntOp.addi ![65536] ![1] ![65535] ![0] cnt
    (broadcastInDim S_ ![] bcast_S_S_ (constantI S_ 32 0#32)) reduceWindows_S65536_S65536_w65536s1p65535_0 h_S_

/-- The slot of each sample within its ray, from the counts and their running totals: its position minus the first
    sample of its ray (the total up to and including the ray, minus the ray's own count). -/
def slotOf (cnt tot : IVec S65536 32) (a1 : IVec S8388608 32) : IVec S8388608 32 :=
  subi (iotaInDim S8388608 32 0)
    (Host.gather gather_S65536_S8388608x1_S8388608_n_0_n_n_0_1_1 (subi tot cnt) (rayCol a1))

/-- The slot of each sample within its ray. -/
def slot (a1 : IVec S8388608 32) : IVec S8388608 32 := slotOf (counts a1) (totalsOf (counts a1)) a1

/-- A slot wrapped into range. -/
def wrapSlot (s : IVec S8388608 32) : IVec S8388608 32 :=
  select (cmpi .slt s (broadcastInDim S8388608 ![] bcast_S_S8388608 (constantI S_ 32 0#32)))
    (addi s (broadcastInDim S8388608 ![] bcast_S_S8388608 (constantI S_ 32 256#32))) s

/-- The (ray, slot) pair of each sample, from the ray indices and the slots. -/
def pairs (a1 s : IVec S8388608 32) : IVec S8388608x2 32 :=
  concatenate S8388608x2 1 [⟨S8388608x1, rayCol a1⟩,
    ⟨S8388608x1, broadcastInDim S8388608x1 ![0] bcast_S8388608_S8388608x1_0 (wrapSlot s)⟩]
    concatenates_S8388608x1_S8388608x1_S8388608x2_d1

/-- The number of valid slots of each ray, as a column: the count, at most 256. -/
def numSampsOf (cnt : IVec S65536 32) : IVec S65536x1 32 :=
  shapeCast S65536x1 (minsi cnt (broadcastInDim S65536 ![] bcast_S_S65536 (constantI S_ 32 256#32)))
    shapeCasts_S65536_S65536x1

/-- One column of a two-column table, as a vector. -/
def column (o : Fin 2 → Nat) (h : S8388608x2.Slices o S8388608x1) (x : FVec F S8388608x2 .f32) : FVec F S8388608 .f32 :=
  shapeCast S8388608 (extractStridedSlice S8388608x1 o x h) shapeCasts_S8388608x1_S8388608

/-- A table of zeros with one value per sample stored at its (ray, slot) pair; a pair out of range stores nothing. -/
def scatterAt (a1 s : IVec S8388608 32) (u : FVec F S8388608 .f32) : FVec F S65536x256 .f32 :=
  Host.scatter scatter_S65536x256_S8388608x2_S8388608_n_01_01_1 (fun _ b => b)
    (broadcastInDim S65536x256 ![] bcast_S_S65536x256 (constant S_ .f32 0x00000000#32)) (pairs a1 s) u

/-! ## The host lines read at a buffer -/

attribute [local irreducible] Host.reduceWindow Host.gather Host.scatter concatenate

/-- A buffer no operation of a line writes keeps its contents. -/
macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (W : Valuation τ sig (Elt F))

/-- Before the first region: the gathered ray rows. -/
theorem pre_v6 : after (hostOps0 (F := F)) W (Proc.devRef .tc main_v6)
      = Host.gather gather_S65536x6_S8388608x1_S8388608x6_1_0_n_n_0_1_16 (W (Proc.devRef .tc main_arg0)) (rayCol (W (Proc.devRef .tc main_arg1))) := by
  after_results; rfl

/-- Before the first region: the start and end distances side by side. -/
theorem pre_v9 : after (hostOps0 (F := F)) W (Proc.devRef .tc main_v9)
      = concatenate S8388608x2 1 [⟨S8388608x1, broadcastInDim S8388608x1 ![0] bcast_S8388608_S8388608x1_0 (W (Proc.devRef .tc main_arg2))⟩,
          ⟨S8388608x1, broadcastInDim S8388608x1 ![0] bcast_S8388608_S8388608x1_0 (W (Proc.devRef .tc main_arg3))⟩]
          concatenates_S8388608x1_S8388608x1_S8388608x2_d1 := by
  after_results

theorem pre_arg1 : after (hostOps0 (F := F)) W (Proc.devRef .tc main_arg1) = W (Proc.devRef .tc main_arg1) := by keeps hostOps0

/-! The first line between the regions: the columns of the first region's second result, and the counts. -/

theorem s1_v12 : after (hostOps1 (F := F)) W (Proc.devRef .tc main_v12)
      = column ![0, 0] slices_S8388608x2_S8388608x1_0_0 (W (Proc.devRef .tc main_v10_1)) := by
  after_results; rfl
theorem s1_v14 : after (hostOps1 (F := F)) W (Proc.devRef .tc main_v14)
      = column ![0, 1] slices_S8388608x2_S8388608x1_0_1 (W (Proc.devRef .tc main_v10_1)) := by
  after_results; rfl
theorem s1_v18 : after (hostOps1 (F := F)) W (Proc.devRef .tc main_v18) = counts (W (Proc.devRef .tc main_arg1)) := by
  after_results; rfl
theorem s1_arg1 : after (hostOps1 (F := F)) W (Proc.devRef .tc main_arg1) = W (Proc.devRef .tc main_arg1) := by keeps hostOps1
theorem s1_v10_0 : after (hostOps1 (F := F)) W (Proc.devRef .tc main_v10_0) = W (Proc.devRef .tc main_v10_0) := by keeps hostOps1

/-! The running totals (the outlined function's three operations). -/

theorem s2_v19 : after (hostOps1_1 (F := F)) W (Proc.devRef .tc main_v19) = totalsOf (W (Proc.devRef .tc main_v18)) := by
  after_results; rfl
theorem s2_v18 : after (hostOps1_1 (F := F)) W (Proc.devRef .tc main_v18) = W (Proc.devRef .tc main_v18) := by keeps hostOps1_1
theorem s2_v12 : after (hostOps1_1 (F := F)) W (Proc.devRef .tc main_v12) = W (Proc.devRef .tc main_v12) := by keeps hostOps1_1
theorem s2_v14 : after (hostOps1_1 (F := F)) W (Proc.devRef .tc main_v14) = W (Proc.devRef .tc main_v14) := by keeps hostOps1_1
theorem s2_arg1 : after (hostOps1_1 (F := F)) W (Proc.devRef .tc main_arg1) = W (Proc.devRef .tc main_arg1) := by keeps hostOps1_1
theorem s2_v10_0 : after (hostOps1_1 (F := F)) W (Proc.devRef .tc main_v10_0) = W (Proc.devRef .tc main_v10_0) := by keeps hostOps1_1

/-! The last line before the second region: the slots and the valid-slot counts. -/

theorem s3_v29 : after (hostOps1_2 (F := F)) W (Proc.devRef .tc main_v29)
      = slotOf (W (Proc.devRef .tc main_v18)) (W (Proc.devRef .tc main_v19)) (W (Proc.devRef .tc main_arg1)) := by
  after_results; rfl
theorem s3_v32 : after (hostOps1_2 (F := F)) W (Proc.devRef .tc main_v32) = numSampsOf (W (Proc.devRef .tc main_v18)) := by
  after_results; rfl
theorem s3_v12 : after (hostOps1_2 (F := F)) W (Proc.devRef .tc main_v12) = W (Proc.devRef .tc main_v12) := by keeps hostOps1_2
theorem s3_v14 : after (hostOps1_2 (F := F)) W (Proc.devRef .tc main_v14) = W (Proc.devRef .tc main_v14) := by keeps hostOps1_2
theorem s3_arg1 : after (hostOps1_2 (F := F)) W (Proc.devRef .tc main_arg1) = W (Proc.devRef .tc main_arg1) := by keeps hostOps1_2
theorem s3_v10_0 : after (hostOps1_2 (F := F)) W (Proc.devRef .tc main_v10_0) = W (Proc.devRef .tc main_v10_0) := by keeps hostOps1_2

/-! The line after the second region: the mask and the two scatters. -/

theorem post_v36 : after (hostOps2 (F := F)) W (Proc.devRef .tc main_v36)
      = cmpi .ne (W (Proc.devRef .tc main_v33)) (broadcastInDim S65536x256 ![] bcast_S_S65536x256 (constantI S_ 32 0#32)) := by
  after_results; rfl
theorem post_v10_0 : after (hostOps2 (F := F)) W (Proc.devRef .tc main_v10_0) = W (Proc.devRef .tc main_v10_0) := by keeps hostOps2

end Cert.KernelIdeal.Vals
end
-- ==== Proof.KernelVals2.lean ====
/-
  The two scatters of the idealized kernel program's last host line, read at their result buffers: each is a table of
  zeros with one value per sample stored at the sample's (ray, slot) pair, the pair built from the ray index of the
  sample and its slot as the line finds them.
-/
import proofs.«176005_j39625368272911_1_alg».proof.Proof.KernelVals

set_option maxRecDepth 16384

noncomputable section

namespace Cert.KernelIdeal.Vals

open Cert.KernelIdeal Cert.KernelIdeal.Gen
open Idealize.ShloMosaic Idealize.ShloMosaic.TcCoe Idealize.ShloMosaic.StableHlo

variable {F : FTy → Type} [FloatOps F]

attribute [local irreducible] Host.reduceWindow Host.gather Host.scatter concatenate

/-- Two such scatters agree when the tables they start from, the two index columns and the values stored agree. -/
theorem scatter_congr {Z Z' : FVec F S65536x256 .f32} {A B A' B' : IVec S8388608x1 32} {U U' : FVec F S8388608 .f32}
    (hZ : Z = Z') (hA : A = A') (hB : B = B') (hU : U = U') :
    Host.scatter scatter_S65536x256_S8388608x2_S8388608_n_01_01_1 (fun _ b => b) Z
        (concatenate S8388608x2 1 [⟨S8388608x1, A⟩, ⟨S8388608x1, B⟩] concatenates_S8388608x1_S8388608x1_S8388608x2_d1) U
      = Host.scatter scatter_S65536x256_S8388608x2_S8388608_n_01_01_1 (fun _ b => b) Z'
          (concatenate S8388608x2 1 [⟨S8388608x1, A'⟩, ⟨S8388608x1, B'⟩] concatenates_S8388608x1_S8388608x1_S8388608x2_d1) U' := by
  subst hZ hA hB hU
  rfl

variable (W : Valuation τ sig (Elt F))

theorem post_v51 : after (hostOps2 (F := F)) W (Proc.devRef .tc main_v51)
      = scatterAt (W (Proc.devRef .tc main_arg1)) (W (Proc.devRef .tc main_v29)) (W (Proc.devRef .tc main_v12)) := by
  after_results_simp
  unfold scatterAt pairs
  refine scatter_congr rfl ?_ ?_ rfl
  · after_results_simp; rfl
  · after_results_simp; rfl

theorem post_v66 : after (hostOps2 (F := F)) W (Proc.devRef .tc main_v66)
      = scatterAt (W (Proc.devRef .tc main_arg1)) (W (Proc.devRef .tc main_v29)) (W (Proc.devRef .tc main_v14)) := by
  after_results_simp
  unfold scatterAt pairs
  refine scatter_congr rfl ?_ ?_ rfl
  · after_results_simp; rfl
  · after_results_simp; rfl

end Cert.KernelIdeal.Vals
end
-- ==== Proof.Spec.lean ====
/-
  The two dense per-sample tables the first kernel produces and the validity words the second produces, as
  functions of whole arrays.

  A sample p has a start and an end distance, laid side by side as the row p of a two-column array;
  its midpoint is (start + end) · ½ and its length end − start.  A ray row has six columns: an
  origin in columns 0–2 and a direction in columns 3–5.  The position of sample p along its ray is
  origin + midpoint · direction (columns 0–2), and a fourth column of zeros is appended.

  A ray r has a number of valid slots; slot q of ray r is valid when q is below it.
-/
import Idealize.ShloMosaic.PureOps.Ideal
import Idealize.ShloMosaic.Lib.ValueIdx

noncomputable section

namespace Cert.Spec

open Idealize.ShloMosaic Idealize.ShloMosaic.ValueIdx

/-- The number of samples. -/
abbrev T : Nat := 8388608

/-- ½ and 0 as the programs spell them. -/
abbrev half : EReal := Ideal.ofBits .f32 0x3F000000#32
abbrev zero : EReal := Ideal.ofBits .f32 0x00000000#32

/-- The midpoint of sample `p`: (start + end) · ½. -/
def mid (tse : FVec Ideal ⟨2, ![T, 2]⟩ .f32) (p : Fin T) : EReal :=
  (tse (ix2 p (0 : Fin 2)) + tse (ix2 p (1 : Fin 2))) * half

/-- The length of sample `p`: end − start. -/
def len (tse : FVec Ideal ⟨2, ![T, 2]⟩ .f32) (p : Fin T) : EReal :=
  tse (ix2 p (1 : Fin 2)) - tse (ix2 p (0 : Fin 2))

/-- Entry (p, q) of the positions table: origin + midpoint · direction in columns 0–2, zero in column 3. -/
def xyzAt (rc : FVec Ideal ⟨2, ![T, 6]⟩ .f32) (tse : FVec Ideal ⟨2, ![T, 2]⟩ .f32) (p : Fin T) (q : Fin 4) : EReal :=
  if h : q.val < 3 then
    rc (ix2 p (⟨q.val, by omega⟩ : Fin 6)) + mid tse p * rc (ix2 p (⟨q.val + 3, by omega⟩ : Fin 6))
  else zero

/-- The positions table. -/
def xyzOf (rc : FVec Ideal ⟨2, ![T, 6]⟩ .f32) (tse : FVec Ideal ⟨2, ![T, 2]⟩ .f32) : FVec Ideal ⟨2, ![T, 4]⟩ .f32 :=
  fun i => xyzAt rc tse (i 0) (i 1)

theorem xyzOf_ix2 (rc : FVec Ideal ⟨2, ![T, 6]⟩ .f32) (tse : FVec Ideal ⟨2, ![T, 2]⟩ .f32) (p : Fin T) (q : Fin 4) :
    xyzOf rc tse (ix2 p q) = xyzAt rc tse p q := rfl

/-- Entry (p, q) of the midpoint / length table: the midpoint in column 0, the length in column 1. -/
def pzpdAt (tse : FVec Ideal ⟨2, ![T, 2]⟩ .f32) (p : Fin T) (q : Fin 2) : EReal :=
  if q.val = 0 then mid tse p else len tse p

/-- The midpoint / length table. -/
def pzpdOf (tse : FVec Ideal ⟨2, ![T, 2]⟩ .f32) : FVec Ideal ⟨2, ![T, 2]⟩ .f32 :=
  fun i => pzpdAt tse (i 0) (i 1)

theorem pzpdOf_ix2 (tse : FVec Ideal ⟨2, ![T, 2]⟩ .f32) (p : Fin T) (q : Fin 2) :
    pzpdOf tse (ix2 p q) = pzpdAt tse p q := rfl

/-- Word (r, q) of the validity table: 1 when slot `q` is below ray `r`'s number of valid slots (compared as
    signed 32-bit integers), else 0. -/
def validAt (ns : IVec ⟨2, ![65536, 1]⟩ 32) (r : Fin 65536) (q : Fin 256) : BitVec 32 :=
  (IntOp.cmpi .slt (BitVec.ofNat 32 q.val) (ns (ix2 r (0 : Fin 1)))).setWidth 32

/-- The validity table, as 32-bit words. -/
def validWords (ns : IVec ⟨2, ![65536, 1]⟩ 32) : IVec ⟨2, ![65536, 256]⟩ 32 :=
  fun i => validAt ns (i 0) (i 1)

theorem validWords_ix2 (ns : IVec ⟨2, ![65536, 1]⟩ 32) (r : Fin 65536) (q : Fin 256) :
    validWords ns (ix2 r q) = validAt ns r q := rfl

end Cert.Spec

end
-- ==== Proof.Region0Pz.lean ====
/-
  The first region's second result: the midpoint / length table.

  Each grid point reads a block of 4096 rows of start / end distances and stores two columns:
  column 0 the midpoint (start + end) · ½, column 1 the length end − start.  The two column
  stores together are one function of the block (`pzB`); block `t` of that function is block `t`
  of the whole table `Cert.Spec.pzpdOf` of the array as the region finds it, since row `p` of
  block `t` is row `4096 t + p` of the array; the 2048 blocks cover the 8388608 rows (row `r` lies
  in block `r / 4096`), so after the region the result array is that table (`arr3`).
-/
import proofs.«176005_j39625368272911_1_alg».proof.Proof.Gen.KernelIdeal.Frame
import proofs.«176005_j39625368272911_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-! ## The body's arithmetic, read at an index -/

/-- The start column of a block of start / end distances, read at row `p`. -/
theorem start_apply (x1 : Vec Ideal S4096x2 .f32) (p : Fin 4096) (r : Fin 1) :
    k0_pay2 (F := Ideal) x1 (ix2 p r) = x1 (ix2 p (0 : Fin 2)) := by
  unfold k0_pay2 k0_pay1
  refine (extractStridedSlice_apply _ _ _ (ix2 p r) (ix2 p (0 : Fin 2)) (fun a => ?_)).trans ?_
  · have hr : r.val < 1 := r.isLt
    match a with
    | ⟨0, _⟩ => show p.val = 0 + p.val; omega
    | ⟨1, _⟩ => show 0 = 0 + r.val; omega
  · exact congrFun (shapeCast_self x1 _) _

/-- The end column, read at row `p`. -/
theorem end_apply (x1 : Vec Ideal S4096x2 .f32) (p : Fin 4096) (r : Fin 1) :
    k0_pay3 (F := Ideal) x1 (ix2 p r) = x1 (ix2 p (1 : Fin 2)) := by
  unfold k0_pay3 k0_pay1
  refine (extractStridedSlice_apply _ _ _ (ix2 p r) (ix2 p (1 : Fin 2)) (fun a => ?_)).trans ?_
  · have hr : r.val < 1 := r.isLt
    match a with
    | ⟨0, _⟩ => show p.val = 0 + p.val; omega
    | ⟨1, _⟩ => show 1 = 1 + r.val; omega
  · exact congrFun (shapeCast_self x1 _) _

/-- The midpoint of row `p` of a block of start / end distances: (start + end) · ½. -/
def midB (x1 : Vec Ideal S4096x2 .f32) (p : Fin 4096) : EReal :=
  (x1 (ix2 p (0 : Fin 2)) + x1 (ix2 p (1 : Fin 2))) * Cert.Spec.half

/-- The length of row `p`: end − start. -/
def lenB (x1 : Vec Ideal S4096x2 .f32) (p : Fin 4096) : EReal :=
  x1 (ix2 p (1 : Fin 2)) - x1 (ix2 p (0 : Fin 2))

theorem mid_apply (x1 : Vec Ideal S4096x2 .f32) (p : Fin 4096) (r : Fin 1) :
    k0_pay4 (F := Ideal) x1 (ix2 p r) = midB x1 p := by
  unfold k0_pay4
  show (k0_pay2 (F := Ideal) x1 (ix2 p r) + k0_pay3 (F := Ideal) x1 (ix2 p r)) * _ = _
  rw [start_apply, end_apply]
  rfl

theorem len_apply (x1 : Vec Ideal S4096x2 .f32) (p : Fin 4096) (r : Fin 1) :
    k0_pay5 (F := Ideal) x1 (ix2 p r) = lenB x1 p := by
  unfold k0_pay5
  show k0_pay3 (F := Ideal) x1 (ix2 p r) - k0_pay2 (F := Ideal) x1 (ix2 p r) = _
  rw [start_apply, end_apply]
  rfl

/-! ## What the body leaves in the midpoint / length block -/

/-- The midpoint / length block of a block of start / end distances. -/
def pzB (x1 : Vec Ideal S4096x2 .f32) : Vec Ideal S4096x2 .f32 := fun y =>
  if (y 1).val = 0 then midB x1 (y 0) else lenB x1 (y 0)

theorem out3_eq (c : Dev nD) (i : grid0.Coords) (a1 : Memref sig .tc .vmem S4096x6 .f32) (h1 : a1.IsWhole)
    (a2 : Memref sig .tc .vmem S4096x2 .f32) (h2 : a2.IsWhole) (a3 : Memref sig .tc .vmem S4096x4 .f32) (h3 : a3.IsWhole)
    (a4 : Memref sig .tc .vmem S4096x2 .f32) (h4 : a4.IsWhole) (x0 : Vec Ideal S4096x6 .f32) (x1 : Vec Ideal S4096x2 .f32) :
    out0_A_3 (F := Ideal) c i a1 h1 a2 h2 a3 h3 a4 h4 x0 x1 = pzB x1 := by
  unfold out0_A_3
  rw [View.read_writes_eq_canon _ _ _ (cover0_A_3 c i a1 h1 a2 h2 a3 h3 a4 h4 x0 x1)]
  funext y
  refine View.canon_apply_of_pieces (pzB x1) _ ?_ y (cover0_A_3 c i a1 h1 a2 h2 a3 h3 a4 h4 x0 x1 y)
  unfold kernelRun0_A
  dsimp only
  sl_unfold_words
  simp only [View.readAt_eq_ld, h2.read_unread, View.ld_unit_zero (S := S4096x2) hz]
  intro pc hpc x
  simp only [List.mem_cons, List.not_mem_nil, or_false] at hpc
  rcases hpc with rfl | rfl
  · obtain ⟨p, r, rfl⟩ : ∃ (p : Fin 4096) (r : Fin 1), x = ix2 p r := ⟨x 0, x 1, eq_ix2 x⟩
    have hr : r.val < 1 := r.isLt
    have he : (Rect.unit (s := S4096x2) ![0, 1] ![4096, 1] inb_S4096x2_S4096x1_0_1).emb (ix2 p r) = ix2 p (1 : Fin 2) := by
      funext a; apply Fin.ext
      match a with
      | ⟨0, _⟩ => show 0 + 1 * p.val = p.val; omega
      | ⟨1, _⟩ => show 1 + 1 * r.val = 1; omega
    show k0_pay5 (F := Ideal) x1 (ix2 p r) = pzB x1 ((Rect.unit (s := S4096x2) ![0, 1] ![4096, 1] inb_S4096x2_S4096x1_0_1).emb (ix2 p r))
    rw [he, len_apply]
    rfl
  · obtain ⟨p, r, rfl⟩ : ∃ (p : Fin 4096) (r : Fin 1), x = ix2 p r := ⟨x 0, x 1, eq_ix2 x⟩
    have hr : r.val < 1 := r.isLt
    have he : (Rect.unit (s := S4096x2) ![0, 0] ![4096, 1] inb_S4096x2_S4096x1_0_0).emb (ix2 p r) = ix2 p (0 : Fin 2) := by
      funext a; apply Fin.ext
      match a with
      | ⟨0, _⟩ => show 0 + 1 * p.val = p.val; omega
      | ⟨1, _⟩ => show 0 + 1 * r.val = 0; omega
    show k0_pay4 (F := Ideal) x1 (ix2 p r) = pzB x1 ((Rect.unit (s := S4096x2) ![0, 0] ![4096, 1] inb_S4096x2_S4096x1_0_0).emb (ix2 p r))
    rw [he, mid_apply]
    rfl

/-! ## From blocks to the arrays -/

section Arrays

variable (V : (c : Dev nD) → (b : Ref sig .tc) → Buf (Elt Ideal) ((c : Thread nD τ).loc b))

/-- The index maps, decided over the grid: at point `t` every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 2048 := lt_of_lt_of_eq t.isLt N_0

/-- Row `p` of the block at point `t` is row `4096 t + p` of the array. -/
abbrev rowOf (t : Fin cfg0.N) (p : Fin 4096) : Fin 8388608 :=
  ⟨t.val * 4096 + p.val, by have := point_lt t; have := p.isLt; omega⟩

/-- The block of start / end distances at point `t`, read at an index. -/
theorem tse_blk_apply (c : Dev nD) (t : Fin cfg0.N) (p : Fin 4096) (q : Fin 2) :
    iblk0 V c 1 t (ix2 p q) = V c main_v9 (ix2 (rowOf t p) q) := by
  obtain ⟨-, -, e0, e1, -⟩ := idx_facts t
  show V c main_v9 (((cfg0.win 1).blk t).view.emb (ix2 p q)) = V c main_v9 (ix2 (rowOf t p) q)
  refine congrArg (V c main_v9) ?_
  funext a; apply Fin.ext
  match a with
  | ⟨0, _⟩ => show win0_1.index t (0 : Fin 2) * 4096 + 1 * p.val = t.val * 4096 + p.val; rw [e0]; omega
  | ⟨1, _⟩ => show win0_1.index t (1 : Fin 2) * 2 + 1 * q.val = q.val; rw [e1]; omega

/-- What point `t` writes back to the midpoint / length table is its block of the table of the entry contents. -/
theorem flushed3_eq (c : Dev nD) (t : Fin cfg0.N) :
    (dat0 (F := Ideal) V c).flushed 3 t = ((cfg0.win 3).blk t).view.read (Elt Ideal) (Cert.Spec.pzpdOf (V c main_v9)) := by
  show (cfg0.win 3).cut (grid0.coords t) ((dat0 V c).after 3 t) = _
  rw [after0_3]
  unfold outsAt0
  dsimp only
  refine (congrArg ((cfg0.win 3).cut (grid0.coords t)) (out3_eq c (grid0.coords t) (ms0_0 t) (hs0_0 t) (ms0_1 t) (hs0_1 t)
    (ms0_2 t) (hs0_2 t) (ms0_3 t) (hs0_3 t) (iblk0 V c 0 t) (iblk0 V c 1 t))).trans ?_
  obtain ⟨-, -, -, -, -, -, e0, e1⟩ := idx_facts t
  funext j
  obtain ⟨p, q, rfl⟩ : ∃ (p : Fin 4096) (q : Fin 2), j = ix2 p q := ⟨j 0, j 1, eq_ix2 j⟩
  have he : ((cfg0.win 3).blk t).view.emb (ix2 p q) = ix2 (rowOf t p) q := by
    funext a; apply Fin.ext
    match a with
    | ⟨0, _⟩ => show win0_3.index t (0 : Fin 2) * 4096 + 1 * p.val = t.val * 4096 + p.val; rw [e0]; omega
    | ⟨1, _⟩ => show win0_3.index t (1 : Fin 2) * 2 + 1 * q.val = q.val; rw [e1]; omega
  show pzB (iblk0 V c 1 t) (ix2 p q) = Cert.Spec.pzpdOf (V c main_v9) (((cfg0.win 3).blk t).view.emb (ix2 p q))
  rw [he]
  show (if q.val = 0 then midB (iblk0 V c 1 t) p else lenB (iblk0 V c 1 t) p) = Cert.Spec.pzpdAt (V c main_v9) (rowOf t p) q
  unfold midB lenB Cert.Spec.pzpdAt Cert.Spec.mid Cert.Spec.len
  rw [tse_blk_apply V c t p 0, tse_blk_apply V c t p 1]

theorem mem_blk3 (t : Fin cfg0.N) (i : S8388608x2.Idx) :
    i ∈ ((cfg0.win 3).blk t).view.set ↔ ∀ a : Fin 2, win0_3.index t a * S4096x2.size a ≤ (i a).val ∧ (i a).val < win0_3.index t a * S4096x2.size a + S4096x2.size a := by
  show i ∈ ((View.whole main_v10_1).slice (win0_3.rect t)).set ↔ _
  rw [View.set_slice_whole, Rect.mem_set_unit]
  exact Iff.rfl

/-- Row `r` of the table is in the block of point `r / 4096`. -/
theorem cover3 (i : S8388608x2.Idx) : ∃ t : Fin cfg0.N, (cfg0.win 3).flush t = true ∧ i ∈ ((cfg0.win 3).blk t).view.set := by
  have hi0 : (i 0).val < 8388608 := (i 0).isLt
  have hi1 : (i 1).val < 2 := (i 1).isLt
  have hN : cfg0.N = 2048 := N_0
  obtain ⟨t, ht⟩ : ∃ t : Fin cfg0.N, t.val = (i 0).val / 4096 := ⟨⟨(i 0).val / 4096, by rw [hN]; omega⟩, rfl⟩
  obtain ⟨-, -, -, -, -, -, e0, e1⟩ := idx_facts t
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; rw [e0, ht]; omega
  | ⟨1, _⟩ => show win0_3.index t (1 : Fin 2) * 2 ≤ (i 1).val ∧ (i 1).val < win0_3.index t (1 : Fin 2) * 2 + 2; rw [e1]; omega

/-- After the region, the second result is the midpoint / length table of the entry contents of the distances. -/
theorem arr3 (c : Dev nD) : (dat0 (F := Ideal) V c).arrAt 3 cfg0.N = Cert.Spec.pzpdOf (V c main_v9) :=
  (dat0 (F := Ideal) V c).arrAt_eq_of_cover 3 (Cert.Spec.pzpdOf (V c main_v9)) (fun t _ => flushed3_eq V c t) cover3

end Arrays

end Cert.KernelIdeal.Region0

end
-- ==== Proof.Region0.lean ====
/-
  The first region's first result: the positions table.

  Each grid point reads a block of 4096 ray rows (origin in columns 0–2, direction in columns 3–5)
  and the matching block of start / end distances, and stores origin + midpoint · direction into
  columns 0–2 and zeros into column 3.  The two stores together are one function of the two blocks
  (`xyzB`); block `t` of that function is block `t` of the whole table `Cert.Spec.xyzOf` of the two
  arrays as the region finds them, since row `p` of block `t` is row `4096 t + p` of the arrays; the
  2048 blocks cover the 8388608 rows, so after the region the result array is that table (`arr2`).
-/
import proofs.«176005_j39625368272911_1_alg».proof.Proof.Gen.KernelIdeal.Frame
import proofs.«176005_j39625368272911_1_alg».proof.Proof.Spec
import proofs.«176005_j39625368272911_1_alg».proof.Proof.Region0Pz
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The positions block -/

/-- An origin column of a block of rays, read at row `p`. -/
theorem orig_apply (x0 : Vec Ideal S4096x6 .f32) (p : Fin 4096) (q : Fin 3) :
    extractStridedSlice S4096x3 ![0, 0] (shapeCast S4096x6 x0 shapeCasts_S4096x6_S4096x6) slices_S4096x6_o0_0_S4096x3 (ix2 p q)
      = x0 (ix2 p (⟨q.val, by have := q.isLt; omega⟩ : Fin 6)) := by
  refine (extractStridedSlice_apply _ _ _ (ix2 p q) (ix2 p (⟨q.val, by have := q.isLt; omega⟩ : Fin 6)) (fun a => ?_)).trans ?_
  · match a with
    | ⟨0, _⟩ => show p.val = 0 + p.val; omega
    | ⟨1, _⟩ => show q.val = 0 + q.val; omega
  · exact congrFun (shapeCast_self x0 _) _

/-- A direction column of a block of rays, read at row `p`. -/
theorem dir_apply (x0 : Vec Ideal S4096x6 .f32) (p : Fin 4096) (q : Fin 3) :
    extractStridedSlice S4096x3 ![0, 3] (shapeCast S4096x6 x0 shapeCasts_S4096x6_S4096x6) slices_S4096x6_o0_3_S4096x3 (ix2 p q)
      = x0 (ix2 p (⟨q.val + 3, by have := q.isLt; omega⟩ : Fin 6)) := by
  refine (extractStridedSlice_apply _ _ _ (ix2 p q) (ix2 p (⟨q.val + 3, by have := q.isLt; omega⟩ : Fin 6)) (fun a => ?_)).trans ?_
  · match a with
    | ⟨0, _⟩ => show p.val = 0 + p.val; omega
    | ⟨1, _⟩ => show q.val + 3 = 3 + q.val; omega
  · exact congrFun (shapeCast_self x0 _) _

/-- The midpoint column repeated along three columns, read at row `p`. -/
theorem bmid_apply (x1 : Vec Ideal S4096x2 .f32) (p : Fin 4096) (q : Fin 3) :
    broadcastTo S4096x3 (k0_pay4 (F := Ideal) x1) broadcasts_S4096x1_S4096x3 (ix2 p q) = midB x1 p := by
  refine (broadcastTo_apply _ _ (ix2 p q) (ix2 p (0 : Fin 1)) (fun a => ?_)).trans (mid_apply x1 p 0)
  match a with
  | ⟨0, _⟩ => rfl
  | ⟨1, _⟩ => rfl

/-- Origin + midpoint · direction, read at row `p`, column `q`. -/
theorem pos_apply (x0 : Vec Ideal S4096x6 .f32) (x1 : Vec Ideal S4096x2 .f32) (p : Fin 4096) (q : Fin 3) :
    k0_pay6 (F := Ideal) x0 x1 (ix2 p q)
      = x0 (ix2 p (⟨q.val, by have := q.isLt; omega⟩ : Fin 6)) + midB x1 p * x0 (ix2 p (⟨q.val + 3, by have := q.isLt; omega⟩ : Fin 6)) := by
  unfold k0_pay6
  show extractStridedSlice S4096x3 ![0, 0] (shapeCast S4096x6 x0 shapeCasts_S4096x6_S4096x6) slices_S4096x6_o0_0_S4096x3 (ix2 p q)
      + broadcastTo S4096x3 (k0_pay4 (F := Ideal) x1) broadcasts_S4096x1_S4096x3 (ix2 p q)
        * extractStridedSlice S4096x3 ![0, 3] (shapeCast S4096x6 x0 shapeCasts_S4096x6_S4096x6) slices_S4096x6_o0_3_S4096x3 (ix2 p q) = _
  rw [orig_apply, dir_apply, bmid_apply]

/-- Entry (p, q) of the positions block of a block of rays and a block of distances. -/
def xyzBAt (x0 : Vec Ideal S4096x6 .f32) (x1 : Vec Ideal S4096x2 .f32) (p : Fin 4096) (q : Fin 4) : EReal :=
  if h : q.val < 3 then
    x0 (ix2 p (⟨q.val, by omega⟩ : Fin 6)) + midB x1 p * x0 (ix2 p (⟨q.val + 3, by omega⟩ : Fin 6))
  else Cert.Spec.zero

/-- The positions block. -/
def xyzB (x0 : Vec Ideal S4096x6 .f32) (x1 : Vec Ideal S4096x2 .f32) : Vec Ideal S4096x4 .f32 :=
  fun y => xyzBAt x0 x1 (y 0) (y 1)

theorem out2_eq (c : Dev nD) (i : grid0.Coords) (a1 : Memref sig .tc .vmem S4096x6 .f32) (h1 : a1.IsWhole)
    (a2 : Memref sig .tc .vmem S4096x2 .f32) (h2 : a2.IsWhole) (a3 : Memref sig .tc .vmem S4096x4 .f32) (h3 : a3.IsWhole)
    (a4 : Memref sig .tc .vmem S4096x2 .f32) (h4 : a4.IsWhole) (x0 : Vec Ideal S4096x6 .f32) (x1 : Vec Ideal S4096x2 .f32) :
    out0_A_2 (F := Ideal) c i a1 h1 a2 h2 a3 h3 a4 h4 x0 x1 = xyzB x0 x1 := by
  unfold out0_A_2
  rw [View.read_writes_eq_canon _ _ _ (cover0_A_2 c i a1 h1 a2 h2 a3 h3 a4 h4 x0 x1)]
  funext y
  refine View.canon_apply_of_pieces (xyzB x0 x1) _ ?_ y (cover0_A_2 c i a1 h1 a2 h2 a3 h3 a4 h4 x0 x1 y)
  unfold kernelRun0_A
  dsimp only
  sl_unfold_words
  simp only [View.readAt_eq_ld, h1.read_unread, h2.read_unread, View.ld_unit_zero (S := S4096x6) hz, View.ld_unit_zero (S := S4096x2) hz]
  intro pc hpc x
  simp only [List.mem_cons, List.not_mem_nil, or_false] at hpc
  rcases hpc with rfl | rfl
  · obtain ⟨p, r, rfl⟩ : ∃ (p : Fin 4096) (r : Fin 1), x = ix2 p r := ⟨x 0, x 1, eq_ix2 x⟩
    have hr : r.val < 1 := r.isLt
    have he : (Rect.unit (s := S4096x4) ![0, 3] ![4096, 1] inb_S4096x4_S4096x1_0_3).emb (ix2 p r) = ix2 p (3 : Fin 4) := by
      funext a; apply Fin.ext
      match a with
      | ⟨0, _⟩ => show 0 + 1 * p.val = p.val; omega
      | ⟨1, _⟩ => show 3 + 1 * r.val = 3; omega
    show k0_pay7 (F := Ideal) (ix2 p r) = xyzB x0 x1 ((Rect.unit (s := S4096x4) ![0, 3] ![4096, 1] inb_S4096x4_S4096x1_0_3).emb (ix2 p r))
    rw [he]
    rfl
  · obtain ⟨p, q, rfl⟩ : ∃ (p : Fin 4096) (q : Fin 3), x = ix2 p q := ⟨x 0, x 1, eq_ix2 x⟩
    have hq : q.val < 3 := q.isLt
    have he : (Rect.unit (s := S4096x4) ![0, 0] ![4096, 3] inb_S4096x4_S4096x3_0_0).emb (ix2 p q) = ix2 p (⟨q.val, by omega⟩ : Fin 4) := by
      funext a; apply Fin.ext
      match a with
      | ⟨0, _⟩ => show 0 + 1 * p.val = p.val; omega
      | ⟨1, _⟩ => show 0 + 1 * q.val = q.val; omega
    show k0_pay6 (F := Ideal) x0 x1 (ix2 p q) = xyzB x0 x1 ((Rect.unit (s := S4096x4) ![0, 0] ![4096, 3] inb_S4096x4_S4096x3_0_0).emb (ix2 p q))
    rw [he, pos_apply]
    show _ = xyzBAt x0 x1 p (⟨q.val, by omega⟩ : Fin 4)
    unfold xyzBAt
    rw [dif_pos (show (⟨q.val, by omega⟩ : Fin 4).val < 3 from hq)]

/-! ## From blocks to the array -/

section Arrays

variable (V : (c : Dev nD) → (b : Ref sig .tc) → Buf (Elt Ideal) ((c : Thread nD τ).loc b))

/-- The block of rays at point `t`, read at an index. -/
theorem rc_blk_apply (c : Dev nD) (t : Fin cfg0.N) (p : Fin 4096) (q : Fin 6) :
    iblk0 V c 0 t (ix2 p q) = V c main_v6 (ix2 (rowOf t p) q) := by
  obtain ⟨e0, e1, -⟩ := idx_facts t
  show V c main_v6 (((cfg0.win 0).blk t).view.emb (ix2 p q)) = V c main_v6 (ix2 (rowOf t p) q)
  refine congrArg (V c main_v6) ?_
  funext a; apply Fin.ext
  match a with
  | ⟨0, _⟩ => show win0_0.index t (0 : Fin 2) * 4096 + 1 * p.val = t.val * 4096 + p.val; rw [e0]; omega
  | ⟨1, _⟩ => show win0_0.index t (1 : Fin 2) * 6 + 1 * q.val = q.val; rw [e1]; omega

/-- What point `t` writes back to the positions table is its block of the table of the entry contents. -/
theorem flushed2_eq (c : Dev nD) (t : Fin cfg0.N) :
    (dat0 (F := Ideal) V c).flushed 2 t
      = ((cfg0.win 2).blk t).view.read (Elt Ideal) (Cert.Spec.xyzOf (V c main_v6) (V c main_v9)) := by
  show (cfg0.win 2).cut (grid0.coords t) ((dat0 V c).after 2 t) = _
  rw [after0_2]
  unfold outsAt0
  dsimp only
  refine (congrArg ((cfg0.win 2).cut (grid0.coords t)) (out2_eq c (grid0.coords t) (ms0_0 t) (hs0_0 t) (ms0_1 t) (hs0_1 t)
    (ms0_2 t) (hs0_2 t) (ms0_3 t) (hs0_3 t) (iblk0 V c 0 t) (iblk0 V c 1 t))).trans ?_
  obtain ⟨-, -, -, -, e0, e1, -⟩ := idx_facts t
  funext j
  obtain ⟨p, q, rfl⟩ : ∃ (p : Fin 4096) (q : Fin 4), j = ix2 p q := ⟨j 0, j 1, eq_ix2 j⟩
  have he : ((cfg0.win 2).blk t).view.emb (ix2 p q) = ix2 (rowOf t p) q := by
    funext a; apply Fin.ext
    match a with
    | ⟨0, _⟩ => show win0_2.index t (0 : Fin 2) * 4096 + 1 * p.val = t.val * 4096 + p.val; rw [e0]; omega
    | ⟨1, _⟩ => show win0_2.index t (1 : Fin 2) * 4 + 1 * q.val = q.val; rw [e1]; omega
  show xyzB (iblk0 V c 0 t) (iblk0 V c 1 t) (ix2 p q)
    = Cert.Spec.xyzOf (V c main_v6) (V c main_v9) (((cfg0.win 2).blk t).view.emb (ix2 p q))
  rw [he]
  show xyzBAt (iblk0 V c 0 t) (iblk0 V c 1 t) p q = Cert.Spec.xyzAt (V c main_v6) (V c main_v9) (rowOf t p) q
  unfold xyzBAt Cert.Spec.xyzAt
  by_cases h : q.val < 3
  · rw [dif_pos h, dif_pos h]
    unfold midB Cert.Spec.mid
    rw [rc_blk_apply V c t p _, rc_blk_apply V c t p _, tse_blk_apply V c t p 0, tse_blk_apply V c t p 1]
  · rw [dif_neg h, dif_neg h]

theorem mem_blk2 (t : Fin cfg0.N) (i : S8388608x4.Idx) :
    i ∈ ((cfg0.win 2).blk t).view.set ↔ ∀ a : Fin 2, win0_2.index t a * S4096x4.size a ≤ (i a).val ∧ (i a).val < win0_2.index t a * S4096x4.size a + S4096x4.size a := by
  show i ∈ ((View.whole main_v10_0).slice (win0_2.rect t)).set ↔ _
  rw [View.set_slice_whole, Rect.mem_set_unit]
  exact Iff.rfl

/-- Row `r` of the table is in the block of point `r / 4096`. -/
theorem cover2 (i : S8388608x4.Idx) : ∃ t : Fin cfg0.N, (cfg0.win 2).flush t = true ∧ i ∈ ((cfg0.win 2).blk t).view.set := by
  have hi0 : (i 0).val < 8388608 := (i 0).isLt
  have hi1 : (i 1).val < 4 := (i 1).isLt
  have hN : cfg0.N = 2048 := N_0
  obtain ⟨t, ht⟩ : ∃ t : Fin cfg0.N, t.val = (i 0).val / 4096 := ⟨⟨(i 0).val / 4096, by rw [hN]; omega⟩, rfl⟩
  obtain ⟨-, -, -, -, e0, e1, -⟩ := idx_facts t
  refine ⟨t, flush0_2 t, ?_⟩
  rw [mem_blk2]
  intro a
  match a with
  | ⟨0, _⟩ => show win0_2.index t (0 : Fin 2) * 4096 ≤ (i 0).val ∧ (i 0).val < win0_2.index t (0 : Fin 2) * 4096 + 4096; rw [e0, ht]; omega
  | ⟨1, _⟩ => show win0_2.index t (1 : Fin 2) * 4 ≤ (i 1).val ∧ (i 1).val < win0_2.index t (1 : Fin 2) * 4 + 4; rw [e1]; omega

/-- After the region, the first result is the positions table of the entry contents of the rays and the distances. -/
theorem arr2 (c : Dev nD) :
    (dat0 (F := Ideal) V c).arrAt 2 cfg0.N = Cert.Spec.xyzOf (V c main_v6) (V c main_v9) :=
  (dat0 (F := Ideal) V c).arrAt_eq_of_cover 2 (Cert.Spec.xyzOf (V c main_v6) (V c main_v9)) (fun t _ => flushed2_eq V c t) cover2

end Arrays

end Cert.KernelIdeal.Region0

end
-- ==== Proof.Region1.lean ====
/-
  The second region's result: the validity table.

  Each grid point reads a block of 8192 rows of per-ray counts (one column) and stores, at row `p`
  and slot `q` of a block of 256 slots, the word 1 when `q` is below the count of row `p` (compared
  as signed 32-bit integers) and 0 otherwise: the slot number is the second coordinate, the count
  column is repeated along the slots.  The one store covers the block; block `t` of that function
  is block `t` of the whole table `Cert.Spec.validWords` of the array as the region finds it, since
  row `p` of block `t` is row `8192 t + p` of the array; the 8 blocks cover the 65536 rows (row `r`
  lies in block `r / 8192`), so after the region the result array is that table (`arr1`).
-/
import proofs.«176005_j39625368272911_1_alg».proof.Proof.Gen.KernelIdeal.Frame
import proofs.«176005_j39625368272911_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-! ## The body's words, read at an index -/

/-- Word (p, q) of the validity block of a block of counts. -/
def validBAt (x0 : Vec F S8192x1 .i32) (p : Fin 8192) (q : Fin 256) : BitVec 32 :=
  (IntOp.cmpi .slt (BitVec.ofNat 32 q.val) (x0 (ix2 p (0 : Fin 1)))).setWidth 32

/-- The validity block. -/
def validB (x0 : Vec F S8192x1 .i32) : Vec F S8192x256 .i32 := fun y => validBAt x0 (y 0) (y 1)

/-- The count column repeated along the slots, read at row `p`. -/
theorem bcount_apply (x0 : Vec F S8192x1 .i32) (p : Fin 8192) (q : Fin 256) :
    broadcastTo S8192x256 (shapeCast S8192x1 x0 shapeCasts_S8192x1_S8192x1) broadcasts_S8192x1_S8192x256 (ix2 p q)
      = x0 (ix2 p (0 : Fin 1)) := by
  refine (broadcastTo_apply _ _ (ix2 p q) (ix2 p (0 : Fin 1)) (fun a => ?_)).trans ?_
  · match a with
    | ⟨0, _⟩ => rfl
    | ⟨1, _⟩ => rfl
  · exact congrFun (shapeCast_self x0 _) _

/-- The stored words, read at row `p`, slot `q`. -/
theorem pay_apply (x0 : Vec F S8192x1 .i32) (p : Fin 8192) (q : Fin 256) :
    k1_pay1 (F := F) x0 (ix2 p q) = validBAt x0 p q := by
  unfold k1_pay1 validBAt
  show (IntOp.cmpi .slt (iota .tc S8192x256 32 [1] iota_S8192x256_d1_w32 (ix2 p q))
      (broadcastTo S8192x256 (shapeCast S8192x1 x0 shapeCasts_S8192x1_S8192x1) broadcasts_S8192x1_S8192x256 (ix2 p q))).setWidth 32 = _
  rw [iota_single_apply, bcount_apply]

/-- What the body leaves in the result's block: the validity block of the block of counts. -/
theorem out_eq (x0 : Vec F S8192x1 .i32) : out1_1 (F := F) x0 = validB x0 := by
  unfold out1_1
  rw [View.canon_unit_zero hz]
  simp only [View.ld_unit_zero (S := S8192x1) hz]
  funext y
  obtain ⟨p, q, rfl⟩ : ∃ (p : Fin 8192) (q : Fin 256), y = ix2 p q := ⟨y 0, y 1, eq_ix2 y⟩
  exact pay_apply x0 p q

/-! ## From blocks to the array -/

section Arrays

variable (V : (c : Dev nD) → (b : Ref sig .tc) → Buf (Elt F) ((c : Thread nD τ).loc b))

/-- The index maps, decided over the grid: at point `t` both windows' block index is (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem point_lt (t : Fin cfg1.N) : t.val < 8 := lt_of_lt_of_eq t.isLt N_1

/-- Row `p` of the block at point `t` is row `8192 t + p` of the array. -/
abbrev rowOf (t : Fin cfg1.N) (p : Fin 8192) : Fin 65536 :=
  ⟨t.val * 8192 + p.val, by have := point_lt t; have := p.isLt; omega⟩

/-- The block of counts at point `t`, read at an index. -/
theorem count_blk_apply (c : Dev nD) (t : Fin cfg1.N) (p : Fin 8192) (q : Fin 1) :
    iblk1 V c 0 t (ix2 p q) = V c main_v32 (ix2 (rowOf t p) q) := by
  obtain ⟨e0, e1, -⟩ := idx_facts t
  show V c main_v32 (((cfg1.win 0).blk t).view.emb (ix2 p q)) = V c main_v32 (ix2 (rowOf t p) q)
  refine congrArg (V c main_v32) ?_
  funext a; apply Fin.ext
  match a with
  | ⟨0, _⟩ => show win1_0.index t (0 : Fin 2) * 8192 + 1 * p.val = t.val * 8192 + p.val; rw [e0]; omega
  | ⟨1, _⟩ => show win1_0.index t (1 : Fin 2) * 1 + 1 * q.val = q.val; rw [e1]; omega

/-- What point `t` writes back to the validity table is its block of the table of the entry contents. -/
theorem flushed_eq (c : Dev nD) (t : Fin cfg1.N) :
    (dat1 (F := F) V c).flushed 1 t = ((cfg1.win 1).blk t).view.read (Elt F) (Cert.Spec.validWords (V c main_v32)) := by
  show (cfg1.win 1).cut (grid1.coords t) ((dat1 V c).after 1 t) = _
  rw [after1_1]
  refine (congrArg ((cfg1.win 1).cut (grid1.coords t)) (out_eq (iblk1 V c 0 t))).trans ?_
  obtain ⟨-, -, e0, e1⟩ := idx_facts t
  funext j
  obtain ⟨p, q, rfl⟩ : ∃ (p : Fin 8192) (q : Fin 256), j = ix2 p q := ⟨j 0, j 1, eq_ix2 j⟩
  have he : ((cfg1.win 1).blk t).view.emb (ix2 p q) = ix2 (rowOf t p) q := by
    funext a; apply Fin.ext
    match a with
    | ⟨0, _⟩ => show win1_1.index t (0 : Fin 2) * 8192 + 1 * p.val = t.val * 8192 + p.val; rw [e0]; omega
    | ⟨1, _⟩ => show win1_1.index t (1 : Fin 2) * 256 + 1 * q.val = q.val; rw [e1]; omega
  show validB (iblk1 V c 0 t) (ix2 p q) = Cert.Spec.validWords (V c main_v32) (((cfg1.win 1).blk t).view.emb (ix2 p q))
  rw [he]
  show validBAt (iblk1 V c 0 t) p q = Cert.Spec.validAt (V c main_v32) (rowOf t p) q
  unfold validBAt Cert.Spec.validAt
  rw [count_blk_apply V c t p 0]

theorem mem_blk (t : Fin cfg1.N) (i : S65536x256.Idx) :
    i ∈ ((cfg1.win 1).blk t).view.set ↔ ∀ a : Fin 2, win1_1.index t a * S8192x256.size a ≤ (i a).val ∧ (i a).val < win1_1.index t a * S8192x256.size a + S8192x256.size a := by
  show i ∈ ((View.whole main_v33).slice (win1_1.rect t)).set ↔ _
  rw [View.set_slice_whole, Rect.mem_set_unit]
  exact Iff.rfl

/-- Row `r` of the table is in the block of point `r / 8192`. -/
theorem cover (i : S65536x256.Idx) : ∃ t : Fin cfg1.N, (cfg1.win 1).flush t = true ∧ i ∈ ((cfg1.win 1).blk t).view.set := by
  have hi0 : (i 0).val < 65536 := (i 0).isLt
  have hi1 : (i 1).val < 256 := (i 1).isLt
  have hN : cfg1.N = 8 := N_1
  obtain ⟨t, ht⟩ : ∃ t : Fin cfg1.N, t.val = (i 0).val / 8192 := ⟨⟨(i 0).val / 8192, by rw [hN]; omega⟩, rfl⟩
  obtain ⟨-, -, e0, e1⟩ := idx_facts t
  refine ⟨t, flush1_1 t, ?_⟩
  rw [mem_blk]
  intro a
  match a with
  | ⟨0, _⟩ => show win1_1.index t (0 : Fin 2) * 8192 ≤ (i 0).val ∧ (i 0).val < win1_1.index t (0 : Fin 2) * 8192 + 8192; rw [e0, ht]; omega
  | ⟨1, _⟩ => show win1_1.index t (1 : Fin 2) * 256 ≤ (i 1).val ∧ (i 1).val < win1_1.index t (1 : Fin 2) * 256 + 256; rw [e1]; omega

/-- After the region, the result is the validity table of the entry contents of the counts. -/
theorem arr1 (c : Dev nD) : (dat1 (F := F) V c).arrAt 1 cfg1.N = Cert.Spec.validWords (V c main_v32) :=
  (dat1 (F := F) V c).arrAt_eq_of_cover 1 (Cert.Spec.validWords (V c main_v32)) (fun t _ => flushed_eq V c t) cover

end Arrays

end Cert.KernelIdeal.Region1

end
-- ==== Proof.KernelRes.lean ====
/-
  The four results of the idealized kernel program as functions of its four arguments.

  Walking the segment boundaries back from the end: the positions table is the first region's first result, which no
  later operation writes; the mask is where the second region's words are not zero, and those words compare each slot
  with the ray's number of valid slots, the count of the ray's samples capped at 256; the two dense tables are zeros
  with the midpoint / the length of every sample (the two columns of the first region's second result) stored at the
  sample's (ray, slot) pair.
-/
import proofs.«176005_j39625368272911_1_alg».proof.Proof.KernelVals
import proofs.«176005_j39625368272911_1_alg».proof.Proof.KernelVals2
import proofs.«176005_j39625368272911_1_alg».proof.Proof.Region0
import proofs.«176005_j39625368272911_1_alg».proof.Proof.Region1

set_option maxRecDepth 16384

noncomputable section

namespace Cert.KernelIdeal.Res

open Cert.KernelIdeal Cert.KernelIdeal.Gen Cert.KernelIdeal.Vals
open Idealize.ShloMosaic Idealize.ShloMosaic.TcCoe Idealize.ShloMosaic.StableHlo

variable (m : (ℓ : Loc nD τ sig) → Buf (Elt Ideal) ℓ) (ρ : Dev nD → PrngReg) (c : Dev nD)

/-! ## The ray index of every sample, at every boundary -/

theorem a1_W2 : W2 m ρ c (Proc.devRef .tc main_arg1) = m ((c : Thread nD τ).loc main_arg1) :=
  (W2_of_ne m ρ c main_arg1 (by decide)).trans (pre_arg1 (W0 m ρ c))
theorem a1_W3 : W3 m ρ c (Proc.devRef .tc main_arg1) = m ((c : Thread nD τ).loc main_arg1) :=
  (s1_arg1 (W2 m ρ c)).trans (a1_W2 m ρ c)
theorem a1_W4 : W4 m ρ c (Proc.devRef .tc main_arg1) = m ((c : Thread nD τ).loc main_arg1) :=
  (s2_arg1 (W3 m ρ c)).trans (a1_W3 m ρ c)
theorem a1_W5 : W5 m ρ c (Proc.devRef .tc main_arg1) = m ((c : Thread nD τ).loc main_arg1) :=
  (s3_arg1 (W4 m ρ c)).trans (a1_W4 m ρ c)
theorem a1_W6 : W6 m ρ c (Proc.devRef .tc main_arg1) = m ((c : Thread nD τ).loc main_arg1) :=
  (W6_of_ne m ρ c main_arg1 (by decide)).trans (a1_W5 m ρ c)

/-! ## What the first region reads and leaves -/

theorem entry_v6 : V1 m ρ c main_v6
    = Host.gather gather_S65536x6_S8388608x1_S8388608x6_1_0_n_n_0_1_16 (m ((c : Thread nD τ).loc main_arg0)) (rayCol (m ((c : Thread nD τ).loc main_arg1))) :=
  pre_v6 (W0 m ρ c)

theorem entry_v9 : V1 m ρ c main_v9
    = concatenate S8388608x2 1 [⟨S8388608x1, broadcastInDim S8388608x1 ![0] bcast_S8388608_S8388608x1_0 (m ((c : Thread nD τ).loc main_arg2))⟩,
          ⟨S8388608x1, broadcastInDim S8388608x1 ![0] bcast_S8388608_S8388608x1_0 (m ((c : Thread nD τ).loc main_arg3))⟩]
          concatenates_S8388608x1_S8388608x1_S8388608x2_d1 :=
  pre_v9 (W0 m ρ c)

/-- The first region's second result: the midpoint and the length of every sample. -/
theorem exit_v10_1 : W2 m ρ c (Proc.devRef .tc main_v10_1) = Cert.Spec.pzpdOf (V1 m ρ c main_v9) :=
  (W2_arr m ρ c 3).trans (Cert.KernelIdeal.Region0.arr3 (V1 m ρ) c)

/-! ## The counts, the slots, and the columns, at the boundaries that use them -/

theorem v18_W3 : W3 m ρ c (Proc.devRef .tc main_v18) = counts (m ((c : Thread nD τ).loc main_arg1)) :=
  (s1_v18 (W2 m ρ c)).trans (congrArg counts (a1_W2 m ρ c))
theorem v18_W4 : W4 m ρ c (Proc.devRef .tc main_v18) = counts (m ((c : Thread nD τ).loc main_arg1)) :=
  (s2_v18 (W3 m ρ c)).trans (v18_W3 m ρ c)
theorem v19_W4 : W4 m ρ c (Proc.devRef .tc main_v19) = totalsOf (counts (m ((c : Thread nD τ).loc main_arg1))) :=
  (s2_v19 (W3 m ρ c)).trans (congrArg totalsOf (v18_W3 m ρ c))
theorem v29_W6 : W6 m ρ c (Proc.devRef .tc main_v29) = slot (m ((c : Thread nD τ).loc main_arg1)) :=
  (W6_of_ne m ρ c main_v29 (by decide)).trans ((s3_v29 (W4 m ρ c)).trans (by
    rw [v18_W4, v19_W4, a1_W4]; rfl))
theorem v32_W5 : V5 m ρ c main_v32 = numSampsOf (counts (m ((c : Thread nD τ).loc main_arg1))) :=
  (s3_v32 (W4 m ρ c)).trans (congrArg numSampsOf (v18_W4 m ρ c))

theorem v12_W6 : W6 m ρ c (Proc.devRef .tc main_v12)
    = column ![0, 0] slices_S8388608x2_S8388608x1_0_0 (Cert.Spec.pzpdOf (V1 m ρ c main_v9)) :=
  (W6_of_ne m ρ c main_v12 (by decide)).trans ((s3_v12 (W4 m ρ c)).trans ((s2_v12 (W3 m ρ c)).trans
    ((s1_v12 (W2 m ρ c)).trans (congrArg (column ![0, 0] slices_S8388608x2_S8388608x1_0_0) (exit_v10_1 m ρ c)))))
theorem v14_W6 : W6 m ρ c (Proc.devRef .tc main_v14)
    = column ![0, 1] slices_S8388608x2_S8388608x1_0_1 (Cert.Spec.pzpdOf (V1 m ρ c main_v9)) :=
  (W6_of_ne m ρ c main_v14 (by decide)).trans ((s3_v14 (W4 m ρ c)).trans ((s2_v14 (W3 m ρ c)).trans
    ((s1_v14 (W2 m ρ c)).trans (congrArg (column ![0, 1] slices_S8388608x2_S8388608x1_0_1) (exit_v10_1 m ρ c)))))

/-! ## The four results -/

/-- The positions table. -/
theorem res_xyz : W7 m ρ c (Proc.devRef .tc main_v10_0) = Cert.Spec.xyzOf (V1 m ρ c main_v6) (V1 m ρ c main_v9) :=
  (post_v10_0 (W6 m ρ c)).trans ((W6_of_ne m ρ c main_v10_0 (by decide)).trans ((s3_v10_0 (W4 m ρ c)).trans
    ((s2_v10_0 (W3 m ρ c)).trans ((s1_v10_0 (W2 m ρ c)).trans ((W2_arr m ρ c 2).trans
      (Cert.KernelIdeal.Region0.arr2 (V1 m ρ) c))))))

/-- The mask. -/
theorem res_valid : W7 m ρ c (Proc.devRef .tc main_v36)
    = cmpi .ne (Cert.Spec.validWords (numSampsOf (counts (m ((c : Thread nD τ).loc main_arg1)))))
        (broadcastInDim S65536x256 ![] bcast_S_S65536x256 (constantI S_ 32 0#32)) :=
  (post_v36 (W6 m ρ c)).trans (congrArg (fun x : IVec S65536x256 32 => cmpi .ne x (broadcastInDim S65536x256 ![] bcast_S_S65536x256 (constantI S_ 32 0#32)))
    ((W6_arr m ρ c 1).trans ((Cert.KernelIdeal.Region1.arr1 (V5 m ρ) c).trans (congrArg Cert.Spec.validWords (v32_W5 m ρ c)))))

/-- The dense midpoints. -/
theorem res_z : W7 m ρ c (Proc.devRef .tc main_v51)
    = scatterAt (m ((c : Thread nD τ).loc main_arg1)) (slot (m ((c : Thread nD τ).loc main_arg1)))
        (column ![0, 0] slices_S8388608x2_S8388608x1_0_0 (Cert.Spec.pzpdOf (V1 m ρ c main_v9))) :=
  (post_v51 (W6 m ρ c)).trans (by rw [a1_W6, v29_W6, v12_W6])

/-- The dense lengths. -/
theorem res_d : W7 m ρ c (Proc.devRef .tc main_v66)
    = scatterAt (m ((c : Thread nD τ).loc main_arg1)) (slot (m ((c : Thread nD τ).loc main_arg1)))
        (column ![0, 1] slices_S8388608x2_S8388608x1_0_1 (Cert.Spec.pzpdOf (V1 m ρ c main_v9))) :=
  (post_v66 (W6 m ρ c)).trans (by rw [a1_W6, v29_W6, v14_W6])

end Cert.KernelIdeal.Res
end
-- ==== Proof.RefOps.lean ====
/- The reference program's host operations as ONE list, in the order @main runs them (its windows one after
   the other; each call of a module-local function replaced by that function's operations over the buffers
   the call names), and, per operation, that the buffers it touches are TensorCore references. A table
   transcribed from the printed program, operation for operation; nothing is argued in this module. -/
import proofs.«176005_j39625368272911_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 102 operations, in order. -/
abbrev ops : List (HloOp τ sig (Elt F)) :=
  [ StableHlo.unary main_arg0 main_v0 ((extractStridedSlice S65536x3 ![0, 0] · slices_S65536x6_S65536x3_0_0) : (⟨S65536x6, .f32⟩ : BufTy).Contents (Elt F) → (⟨S65536x3, .f32⟩ : BufTy).Contents (Elt F)),
    StableHlo.unary main_arg0 main_v1 ((extractStridedSlice S65536x3 ![0, 3] · slices_S65536x6_S65536x3_0_3) : (⟨S65536x6, .f32⟩ : BufTy).Contents (Elt F) → (⟨S65536x3, .f32⟩ : BufTy).Contents (Elt F)),
    StableHlo.binary main_arg2 main_arg3 main_v2 (addf : (⟨S8388608, .f32⟩ : BufTy).Contents (Elt F) → (⟨S8388608, .f32⟩ : BufTy).Contents (Elt F) → (⟨S8388608, .f32⟩ : BufTy).Contents (Elt F)),
    StableHlo.nullary main_cst (constant S_ .f32 0x3F000000#32),
    StableHlo.unary main_cst main_v3 (broadcastInDim S8388608 ![] bcast_S_S8388608 : (⟨S_, .f32⟩ : BufTy).Contents (Elt F) → (⟨S8388608, .f32⟩ : BufTy).Contents (Elt F)),
    StableHlo.binary main_v2 main_v3 main_v4 (mulf : (⟨S8388608, .f32⟩ : BufTy).Contents (Elt F) → (⟨S8388608, .f32⟩ : BufTy).Contents (Elt F) → (⟨S8388608, .f32⟩ : BufTy).Contents (Elt F)),
    StableHlo.binary main_arg3 main_arg2 main_v5 (subf : (⟨S8388608, .f32⟩ : BufTy).Contents (Elt F) → (⟨S8388608, .f32⟩ : BufTy).Contents (Elt F) → (⟨S8388608, .f32⟩ : BufTy).Contents (Elt F)),
    StableHlo.nullary main_c (constantI S_ 32 0#32),
    StableHlo.unary main_c main_v6 (broadcastInDim S8388608 ![] bcast_S_S8388608 : (⟨S_, .i32⟩ : BufTy).Contents (Elt F) → (⟨S8388608, .i32⟩ : BufTy).Contents (Elt F)),
    StableHlo.binary main_arg1 main_v6 main_v7 (cmpi .slt : (⟨S8388608, .i32⟩ : BufTy).Contents (Elt F) → (⟨S8388608, .i32⟩ : BufTy).Contents (Elt F) → (⟨S8388608, .i1⟩ : BufTy).Contents (Elt F)),
    StableHlo.nullary main_c_0 (constantI S_ 32 65536#32),
    StableHlo.unary main_c_0 main_v8 (broadcastInDim S8388608 ![] bcast_S_S8388608 : (⟨S_, .i32⟩ : BufTy).Contents (Elt F) → (⟨S8388608, .i32⟩ : BufTy).Contents (Elt F)),
    StableHlo.binary main_arg1 main_v8 main_v9 (addi : (⟨S8388608, .i32⟩ : BufTy).Contents (Elt F) → (⟨S8388608, .i32⟩ : BufTy).Contents (Elt F) → (⟨S8388608, .i32⟩ : BufTy).Contents (Elt F)),
    StableHlo.ternary main_v7 main_v9 main_arg1 main_v10 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v10 main_v11 (broadcastInDim S8388608x1 ![0] bcast_S8388608_S8388608x1_0 : (⟨S8388608, .i32⟩ : BufTy).Contents (Elt F) → (⟨S8388608x1, .i32⟩ : BufTy).Contents (Elt F)),
    StableHlo.binary main_v0 main_v11 main_v12 ((fun x i => Host.gather gather_S65536x3_S8388608x1_S8388608x3_1_0_n_n_0_1_13 x i) : (⟨S65536x3, .f32⟩ : BufTy).Contents (Elt F) → (⟨S8388608x1, .i32⟩ : BufTy).Contents (Elt F) → (⟨S8388608x3, .f32⟩ : BufTy).Contents (Elt F)),
    StableHlo.unary main_v4 main_v13 (broadcastInDim S8388608x1 ![0] bcast_S8388608_S8388608x1_0 : (⟨S8388608, .f32⟩ : BufTy).Contents (Elt F) → (⟨S8388608x1, .f32⟩ : BufTy).Contents (Elt F)),
    StableHlo.nullary main_c_1 (constantI S_ 32 0#32),
    StableHlo.unary main_c_1 main_v14 (broadcastInDim S8388608 ![] bcast_S_S8388608 : (⟨S_, .i32⟩ : BufTy).Contents (Elt F) → (⟨S8388608, .i32⟩ : BufTy).Contents (Elt F)),
    StableHlo.binary main_arg1 main_v14 main_v15 (cmpi .slt : (⟨S8388608, .i32⟩ : BufTy).Contents (Elt F) → (⟨S8388608, .i32⟩ : BufTy).Contents (Elt F) → (⟨S8388608, .i1⟩ : BufTy).Contents (Elt F)),
    StableHlo.nullary main_c_2 (constantI S_ 32 65536#32),
    StableHlo.unary main_c_2 main_v16 (broadcastInDim S8388608 ![] bcast_S_S8388608 : (⟨S_, .i32⟩ : BufTy).Contents (Elt F) → (⟨S8388608, .i32⟩ : BufTy).Contents (Elt F)),
    StableHlo.binary main_arg1 main_v16 main_v17 (addi : (⟨S8388608, .i32⟩ : BufTy).Contents (Elt F) → (⟨S8388608, .i32⟩ : BufTy).Contents (Elt F) → (⟨S8388608, .i32⟩ : BufTy).Contents (Elt F)),
    StableHlo.ternary main_v15 main_v17 main_arg1 main_v18 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v18 main_v19 (broadcastInDim S8388608x1 ![0] bcast_S8388608_S8388608x1_0 : (⟨S8388608, .i32⟩ : BufTy).Contents (Elt F) → (⟨S8388608x1, .i32⟩ : BufTy).Contents (Elt F)),
    StableHlo.binary main_v1 main_v19 main_v20 ((fun x i => Host.gather gather_S65536x3_S8388608x1_S8388608x3_1_0_n_n_0_1_13 x i) : (⟨S65536x3, .f32⟩ : BufTy).Contents (Elt F) → (⟨S8388608x1, .i32⟩ : BufTy).Contents (Elt F) → (⟨S8388608x3, .f32⟩ : BufTy).Contents (Elt F)),
    StableHlo.unary main_v13 main_v21 (broadcastInDim S8388608x3 ![0, 1] bcast_S8388608x1_S8388608x3_0_1 : (⟨S8388608x1, .f32⟩ : BufTy).Contents (Elt F) → (⟨S8388608x3, .f32⟩ : BufTy).Contents (Elt F)),
    StableHlo.binary main_v21 main_v20 main_v22 (mulf : (⟨S8388608x3, .f32⟩ : BufTy).Contents (Elt F) → (⟨S8388608x3, .f32⟩ : BufTy).Contents (Elt F) → (⟨S8388608x3, .f32⟩ : BufTy).Contents (Elt F)),
    StableHlo.binary main_v12 main_v22 main_v23 (addf : (⟨S8388608x3, .f32⟩ : BufTy).Contents (Elt F) → (⟨S8388608x3, .f32⟩ : BufTy).Contents (Elt F) → (⟨S8388608x3, .f32⟩ : BufTy).Contents (Elt F)),
    StableHlo.nullary main_cst_3 (constant S_ .f32 0x00000000#32),
    StableHlo.unary main_cst_3 main_v24 (broadcastInDim S8388608x1 ![] bcast_S_S8388608x1 : (⟨S_, .f32⟩ : BufTy).Contents (Elt F) → (⟨S8388608x1, .f32⟩ : BufTy).Contents (Elt F)),
    StableHlo.binary main_v23 main_v24 main_v25 ((fun a b => concatenate S8388608x4 1 [⟨S8388608x3, a⟩, ⟨S8388608x1, b⟩] concatenates_S8388608x3_S8388608x1_S8388608x4_d1) : (⟨S8388608x3, .f32⟩ : BufTy).Contents (Elt F) → (⟨S8388608x1, .f32⟩ : BufTy).Contents (Elt F) → (⟨S8388608x4, .f32⟩ : BufTy).Contents (Elt F)),
    StableHlo.nullary main_c_4 (constantI S_ 32 1#32),
    StableHlo.unary main_c_4 main_v26 (broadcastInDim S8388608 ![] bcast_S_S8388608 : (⟨S_, .i32⟩ : BufTy).Contents (Elt F) → (⟨S8388608, .i32⟩ : BufTy).Contents (Elt F)),
    StableHlo.nullary main_c_5 (constantI S_ 32 0#32),
    StableHlo.unary main_c_5 main_v27 (broadcastInDim S65536 ![] bcast_S_S65536 : (⟨S_, .i32⟩ : BufTy).Contents (Elt F) → (⟨S65536, .i32⟩ : BufTy).Contents (Elt F)),
    StableHlo.unary main_arg1 main_v28 (broadcastInDim S8388608x1 ![0] bcast_S8388608_S8388608x1_0 : (⟨S8388608, .i32⟩ : BufTy).Contents (Elt F) → (⟨S8388608x1, .i32⟩ : BufTy).Contents (Elt F)),
    StableHlo.ternary main_v27 main_v28 main_v26 main_v29 ((fun x i u => Host.scatter scatter_S65536_S8388608x1_S8388608_n_0_0_1 IntOp.addi x i u) : (⟨S65536, .i32⟩ : BufTy).Contents (Elt F) → (⟨S8388608x1, .i32⟩ : BufTy).Contents (Elt F) → (⟨S8388608, .i32⟩ : BufTy).Contents (Elt F) → (⟨S65536, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (StableHlo.TRef.of main_v29 : StableHlo.TRef sig ⟨S65536, .i32⟩) main_call0.call0.v0 main_call0.call0.v1 (fun x v => Host.reduceWindow IntOp.addi ![65536] ![1] ![65535] ![0] x v reduceWindows_S65536_S65536_w65536s1p65535_0 h_S_),
    StableHlo.binary main_v30 main_v29 main_v31 (subi : (⟨S65536, .i32⟩ : BufTy).Contents (Elt F) → (⟨S65536, .i32⟩ : BufTy).Contents (Elt F) → (⟨S65536, .i32⟩ : BufTy).Contents (Elt F)),
    StableHlo.nullary main_v32 (iotaInDim S8388608 32 0),
    StableHlo.nullary main_c_6 (constantI S_ 32 0#32),
    StableHlo.unary main_c_6 main_v33 (broadcastInDim S8388608 ![] bcast_S_S8388608 : (⟨S_, .i32⟩ : BufTy).Contents (Elt F) → (⟨S8388608, .i32⟩ : BufTy).Contents (Elt F)),
    StableHlo.binary main_arg1 main_v33 main_v34 (cmpi .slt : (⟨S8388608, .i32⟩ : BufTy).Contents (Elt F) → (⟨S8388608, .i32⟩ : BufTy).Contents (Elt F) → (⟨S8388608, .i1⟩ : BufTy).Contents (Elt F)),
    StableHlo.nullary main_c_7 (constantI S_ 32 65536#32),
    StableHlo.unary main_c_7 main_v35 (broadcastInDim S8388608 ![] bcast_S_S8388608 : (⟨S_, .i32⟩ : BufTy).Contents (Elt F) → (⟨S8388608, .i32⟩ : BufTy).Contents (Elt F)),
    StableHlo.binary main_arg1 main_v35 main_v36 (addi : (⟨S8388608, .i32⟩ : BufTy).Contents (Elt F) → (⟨S8388608, .i32⟩ : BufTy).Contents (Elt F) → (⟨S8388608, .i32⟩ : BufTy).Contents (Elt F)),
    StableHlo.ternary main_v34 main_v36 main_arg1 main_v37 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v37 main_v38 (broadcastInDim S8388608x1 ![0] bcast_S8388608_S8388608x1_0 : (⟨S8388608, .i32⟩ : BufTy).Contents (Elt F) → (⟨S8388608x1, .i32⟩ : BufTy).Contents (Elt F)),
    StableHlo.binary main_v31 main_v38 main_v39 ((fun x i => Host.gather gather_S65536_S8388608x1_S8388608_n_0_n_n_0_1_1 x i) : (⟨S65536, .i32⟩ : BufTy).Contents (Elt F) → (⟨S8388608x1, .i32⟩ : BufTy).Contents (Elt F) → (⟨S8388608, .i32⟩ : BufTy).Contents (Elt F)),
    StableHlo.binary main_v32 main_v39 main_v40 (subi : (⟨S8388608, .i32⟩ : BufTy).Contents (Elt F) → (⟨S8388608, .i32⟩ : BufTy).Contents (Elt F) → (⟨S8388608, .i32⟩ : BufTy).Contents (Elt F)),
    StableHlo.nullary main_c_8 (constantI S_ 32 256#32),
    StableHlo.unary main_c_8 main_v41 (broadcastInDim S65536 ![] bcast_S_S65536 : (⟨S_, .i32⟩ : BufTy).Contents (Elt F) → (⟨S65536, .i32⟩ : BufTy).Contents (Elt F)),
    StableHlo.binary main_v29 main_v41 main_v42 (minsi : (⟨S65536, .i32⟩ : BufTy).Contents (Elt F) → (⟨S65536, .i32⟩ : BufTy).Contents (Elt F) → (⟨S65536, .i32⟩ : BufTy).Contents (Elt F)),
    StableHlo.nullary main_v43 (iotaInDim S256 32 0),
    StableHlo.unary main_v43 main_v44 (broadcastInDim S1x256 ![1] bcast_S256_S1x256_1 : (⟨S256, .i32⟩ : BufTy).Contents (Elt F) → (⟨S1x256, .i32⟩ : BufTy).Contents (Elt F)),
    StableHlo.unary main_v42 main_v45 (broadcastInDim S65536x1 ![0] bcast_S65536_S65536x1_0 : (⟨S65536, .i32⟩ : BufTy).Contents (Elt F) → (⟨S65536x1, .i32⟩ : BufTy).Contents (Elt F)),
    StableHlo.unary main_v44 main_v46 (broadcastInDim S65536x256 ![0, 1] bcast_S1x256_S65536x256_0_1 : (⟨S1x256, .i32⟩ : BufTy).Contents (Elt F) → (⟨S65536x256, .i32⟩ : BufTy).Contents (Elt F)),
    StableHlo.unary main_v45 main_v47 (broadcastInDim S65536x256 ![0, 1] bcast_S65536x1_S65536x256_0_1 : (⟨S65536x1, .i32⟩ : BufTy).Contents (Elt F) → (⟨S65536x256, .i32⟩ : BufTy).Contents (Elt F)),
    StableHlo.binary main_v46 main_v47 main_v48 (cmpi .slt : (⟨S65536x256, .i32⟩ : BufTy).Contents (Elt F) → (⟨S65536x256, .i32⟩ : BufTy).Contents (Elt F) → (⟨S65536x256, .i1⟩ : BufTy).Contents (Elt F)),
    StableHlo.nullary main_cst_9 (constant S_ .f32 0x00000000#32),
    StableHlo.unary main_cst_9 main_v49 (broadcastInDim S65536x256 ![] bcast_S_S65536x256 : (⟨S_, .f32⟩ : BufTy).Contents (Elt F) → (⟨S65536x256, .f32⟩ : BufTy).Contents (Elt F)),
    StableHlo.nullary main_c_10 (constantI S_ 32 0#32),
    StableHlo.unary main_c_10 main_v50 (broadcastInDim S8388608 ![] bcast_S_S8388608 : (⟨S_, .i32⟩ : BufTy).Contents (Elt F) → (⟨S8388608, .i32⟩ : BufTy).Contents (Elt F)),
    StableHlo.binary main_arg1 main_v50 main_v51 (cmpi .slt : (⟨S8388608, .i32⟩ : BufTy).Contents (Elt F) → (⟨S8388608, .i32⟩ : BufTy).Contents (Elt F) → (⟨S8388608, .i1⟩ : BufTy).Contents (Elt F)),
    StableHlo.nullary main_c_11 (constantI S_ 32 65536#32),
    StableHlo.unary main_c_11 main_v52 (broadcastInDim S8388608 ![] bcast_S_S8388608 : (⟨S_, .i32⟩ : BufTy).Contents (Elt F) → (⟨S8388608, .i32⟩ : BufTy).Contents (Elt F)),
    StableHlo.binary main_arg1 main_v52 main_v53 (addi : (⟨S8388608, .i32⟩ : BufTy).Contents (Elt F) → (⟨S8388608, .i32⟩ : BufTy).Contents (Elt F) → (⟨S8388608, .i32⟩ : BufTy).Contents (Elt F)),
    StableHlo.ternary main_v51 main_v53 main_arg1 main_v54 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_12 (constantI S_ 32 0#32),
    StableHlo.unary main_c_12 main_v55 (broadcastInDim S8388608 ![] bcast_S_S8388608 : (⟨S_, .i32⟩ : BufTy).Contents (Elt F) → (⟨S8388608, .i32⟩ : BufTy).Contents (Elt F)),
    StableHlo.binary main_v40 main_v55 main_v56 (cmpi .slt : (⟨S8388608, .i32⟩ : BufTy).Contents (Elt F) → (⟨S8388608, .i32⟩ : BufTy).Contents (Elt F) → (⟨S8388608, .i1⟩ : BufTy).Contents (Elt F)),
    StableHlo.nullary main_c_13 (constantI S_ 32 256#32),
    StableHlo.unary main_c_13 main_v57 (broadcastInDim S8388608 ![] bcast_S_S8388608 : (⟨S_, .i32⟩ : BufTy).Contents (Elt F) → (⟨S8388608, .i32⟩ : BufTy).Contents (Elt F)),
    StableHlo.binary main_v40 main_v57 main_v58 (addi : (⟨S8388608, .i32⟩ : BufTy).Contents (Elt F) → (⟨S8388608, .i32⟩ : BufTy).Contents (Elt F) → (⟨S8388608, .i32⟩ : BufTy).Contents (Elt F)),
    StableHlo.ternary main_v56 main_v58 main_v40 main_v59 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v54 main_v60 (broadcastInDim S8388608x1 ![0] bcast_S8388608_S8388608x1_0 : (⟨S8388608, .i32⟩ : BufTy).Contents (Elt F) → (⟨S8388608x1, .i32⟩ : BufTy).Contents (Elt F)),
    StableHlo.unary main_v59 main_v61 (broadcastInDim S8388608x1 ![0] bcast_S8388608_S8388608x1_0 : (⟨S8388608, .i32⟩ : BufTy).Contents (Elt F) → (⟨S8388608x1, .i32⟩ : BufTy).Contents (Elt F)),
    StableHlo.binary main_v60 main_v61 main_v62 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    StableHlo.ternary main_v49 main_v62 main_v4 main_v63 ((fun x i u => Host.scatter scatter_S65536x256_S8388608x2_S8388608_n_01_01_1 (fun _ b => b) x i u) : (⟨S65536x256, .f32⟩ : BufTy).Contents (Elt F) → (⟨S8388608x2, .i32⟩ : BufTy).Contents (Elt F) → (⟨S8388608, .f32⟩ : BufTy).Contents (Elt F) → (⟨S65536x256, .f32⟩ : BufTy).Contents (Elt F)),
    StableHlo.nullary main_cst_14 (constant S_ .f32 0x00000000#32),
    StableHlo.unary main_cst_14 main_v64 (broadcastInDim S65536x256 ![] bcast_S_S65536x256 : (⟨S_, .f32⟩ : BufTy).Contents (Elt F) → (⟨S65536x256, .f32⟩ : BufTy).Contents (Elt F)),
    StableHlo.nullary main_c_15 (constantI S_ 32 0#32),
    StableHlo.unary main_c_15 main_v65 (broadcastInDim S8388608 ![] bcast_S_S8388608 : (⟨S_, .i32⟩ : BufTy).Contents (Elt F) → (⟨S8388608, .i32⟩ : BufTy).Contents (Elt F)),
    StableHlo.binary main_arg1 main_v65 main_v66 (cmpi .slt : (⟨S8388608, .i32⟩ : BufTy).Contents (Elt F) → (⟨S8388608, .i32⟩ : BufTy).Contents (Elt F) → (⟨S8388608, .i1⟩ : BufTy).Contents (Elt F)),
    StableHlo.nullary main_c_16 (constantI S_ 32 65536#32),
    StableHlo.unary main_c_16 main_v67 (broadcastInDim S8388608 ![] bcast_S_S8388608 : (⟨S_, .i32⟩ : BufTy).Contents (Elt F) → (⟨S8388608, .i32⟩ : BufTy).Contents (Elt F)),
    StableHlo.binary main_arg1 main_v67 main_v68 (addi : (⟨S8388608, .i32⟩ : BufTy).Contents (Elt F) → (⟨S8388608, .i32⟩ : BufTy).Contents (Elt F) → (⟨S8388608, .i32⟩ : BufTy).Contents (Elt F)),
    StableHlo.ternary main_v66 main_v68 main_arg1 main_v69 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_17 (constantI S_ 32 0#32),
    StableHlo.unary main_c_17 main_v70 (broadcastInDim S8388608 ![] bcast_S_S8388608 : (⟨S_, .i32⟩ : BufTy).Contents (Elt F) → (⟨S8388608, .i32⟩ : BufTy).Contents (Elt F)),
    StableHlo.binary main_v40 main_v70 main_v71 (cmpi .slt : (⟨S8388608, .i32⟩ : BufTy).Contents (Elt F) → (⟨S8388608, .i32⟩ : BufTy).Contents (Elt F) → (⟨S8388608, .i1⟩ : BufTy).Contents (Elt F)),
    StableHlo.nullary main_c_18 (constantI S_ 32 256#32),
    StableHlo.unary main_c_18 main_v72 (broadcastInDim S8388608 ![] bcast_S_S8388608 : (⟨S_, .i32⟩ : BufTy).Contents (Elt F) → (⟨S8388608, .i32⟩ : BufTy).Contents (Elt F)),
    StableHlo.binary main_v40 main_v72 main_v73 (addi : (⟨S8388608, .i32⟩ : BufTy).Contents (Elt F) → (⟨S8388608, .i32⟩ : BufTy).Contents (Elt F) → (⟨S8388608, .i32⟩ : BufTy).Contents (Elt F)),
    StableHlo.ternary main_v71 main_v73 main_v40 main_v74 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v69 main_v75 (broadcastInDim S8388608x1 ![0] bcast_S8388608_S8388608x1_0 : (⟨S8388608, .i32⟩ : BufTy).Contents (Elt F) → (⟨S8388608x1, .i32⟩ : BufTy).Contents (Elt F)),
    StableHlo.unary main_v74 main_v76 (broadcastInDim S8388608x1 ![0] bcast_S8388608_S8388608x1_0 : (⟨S8388608, .i32⟩ : BufTy).Contents (Elt F) → (⟨S8388608x1, .i32⟩ : BufTy).Contents (Elt F)),
    StableHlo.binary main_v75 main_v76 main_v77 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    StableHlo.ternary main_v64 main_v77 main_v5 main_v78 ((fun x i u => Host.scatter scatter_S65536x256_S8388608x2_S8388608_n_01_01_1 (fun _ b => b) x i u) : (⟨S65536x256, .f32⟩ : BufTy).Contents (Elt F) → (⟨S8388608x2, .i32⟩ : BufTy).Contents (Elt F) → (⟨S8388608, .f32⟩ : BufTy).Contents (Elt F) → (⟨S65536x256, .f32⟩ : BufTy).Contents (Elt F)) ]

/-- Every operation touches TensorCore references only. -/
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., binary_bufs_sub ..,
    nullary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., unary_bufs_sub .., unary_bufs_sub ..,
    unary_bufs_sub .., binary_bufs_sub .., nullary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..⟩

end Cert.ReferenceIdeal.HandRun

end
-- ==== Proof.RefRun.lean ====
/- The reference program's run, read as a fold. @main is two windows run one after the other; the first calls
   a module-local function (the running sum) which itself calls another, whose body is three operations: the
   constant zero, its rank-zero broadcast, and the windowed sum. Unfolding the windows and the two functions at
   their one call site, and the call's buffer record at its fields, leaves a single chain of host operations —
   the list `ops` — once sequencing is reassociated. So @main's run is that list's: every weakly fair execution
   terminates, and each TensorCore buffer ends at the fold of the operations over the launch contents. -/
import proofs.«176005_j39625368272911_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- one hundred and two binds re-associated: the rewrite under the chain recurses once per statement, and each
-- pass re-traverses the chain built so far, so the work grows with the square of the length
set_option maxRecDepth 16384 in
set_option maxHeartbeats 8000000 in
/-- @main is the straight line `ops`: the two windows in order, the running sum's two functions unfolded at the
    call and the call's record at its fields; both sides are then one chain of `hlo` steps. -/
theorem main_eq (c : Dev nD) : main (F := F) c = seq ops := by
  simp only [main, main_part0, main_part1, fn_cumsum.body, fn_cumsum_0.body, seq, bind_assoc, pure_bind]

/-- No TensorCore buffer is scoped: every buffer is a tensor value's. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefVals.lean ====
/- What the reference program leaves in its four result buffers, as terms of the four arguments' contents.

   The program's inputs: a table of 65536 rays, each an origin (columns 0–2) and a direction (columns 3–5);
   and, for each of 8388608 samples, the index of its ray (negative indices count from the end) and a start
   and an end distance. It returns
   · the samples' positions, origin + midpoint · direction, with a fourth column of zeros;
   · a 65536 × 256 table of flags: slot q of ray r is used when q is below the number of samples of r, capped
     at 256;
   · two 65536 × 256 tables holding, at (ray of p, slot of p), the midpoint and the length of sample p, zero
     elsewhere — the slot of p being p minus the number of samples of all earlier rays (a running sum of the
     per-ray counts, minus the count itself, read at p's ray), wrapped once by 256 when negative.
   Each definition below is one shared intermediate of the program, spelt with the program's own constants
   and dimension records; the four results are their compositions. The reads at the end say that the fold of
   the program's operations over any contents is, at each result buffer, that composition of the argument
   buffers' contents, and that the argument buffers keep theirs. The gather, the scatters and the windowed sum
   are kept folded throughout: the equations never look inside them. -/
import proofs.«176005_j39625368272911_1_alg».proof.Proof.RefRun

noncomputable section

namespace Cert.ReferenceIdeal.HandVals

open Cert.ReferenceIdeal Cert.ReferenceIdeal.Gen Cert.ReferenceIdeal.HandRun Idealize.ShloMosaic Idealize.ShloMosaic.TcCoe Idealize.SL.Sem Idealize.ShloMosaic.StableHlo

variable {F : FTy → Type} [FloatOps F]

/-! ## The shared intermediates -/

/-- The rays' origins: columns 0–2 of the ray table. -/
def org (a0 : FVec F S65536x6 .f32) : FVec F S65536x3 .f32 :=
  extractStridedSlice S65536x3 ![0, 0] a0 slices_S65536x6_S65536x3_0_0

/-- The rays' directions: columns 3–5 of the ray table. -/
def dir (a0 : FVec F S65536x6 .f32) : FVec F S65536x3 .f32 :=
  extractStridedSlice S65536x3 ![0, 3] a0 slices_S65536x6_S65536x3_0_3

/-- The samples' midpoints: (start + end) · ½. -/
def pz (a2 a3 : FVec F S8388608 .f32) : FVec F S8388608 .f32 :=
  mulf (addf a2 a3) (broadcastInDim S8388608 ![] bcast_S_S8388608 (constant S_ .f32 0x3F000000#32))

/-- The samples' lengths: end − start. -/
def pd (a2 a3 : FVec F S8388608 .f32) : FVec F S8388608 .f32 :=
  subf a3 a2

/-- Each sample's ray index, a negative one moved up by the number of rays. -/
def wrapRay (a1 : IVec S8388608 32) : IVec S8388608 32 :=
  select (cmpi .slt a1 (broadcastInDim S8388608 ![] bcast_S_S8388608 (constantI S_ 32 0#32)))
    (addi a1 (broadcastInDim S8388608 ![] bcast_S_S8388608 (constantI S_ 32 65536#32))) a1

/-- The wrapped ray indices as a one-column index table. -/
def rayCol (a1 : IVec S8388608 32) : IVec S8388608x1 32 :=
  broadcastInDim S8388608x1 ![0] bcast_S8388608_S8388608x1_0 (wrapRay a1)

/-- Per ray, the number of samples naming it: ones added into a table of zeros at the samples' (unwrapped)
    ray indices. -/
def counts (a1 : IVec S8388608 32) : IVec S65536 32 :=
  Host.scatter scatter_S65536_S8388608x1_S8388608_n_0_0_1 IntOp.addi
    (broadcastInDim S65536 ![] bcast_S_S65536 (constantI S_ 32 0#32))
    (broadcastInDim S8388608x1 ![0] bcast_S8388608_S8388608x1_0 a1)
    (broadcastInDim S8388608 ![] bcast_S_S8388608 (constantI S_ 32 1#32))

/-- The running sum of the counts: the sum over the window of the 65536 entries ending at each ray, zero
    before the first. -/
def cumCounts (a1 : IVec S8388608 32) : IVec S65536 32 :=
  Host.reduceWindow IntOp.addi ![65536] ![1] ![65535] ![0] (counts a1)
    (broadcastInDim S_ ![] bcast_S_S_ (constantI S_ 32 0#32))
    reduceWindows_S65536_S65536_w65536s1p65535_0 h_S_

/-- Per ray, the number of samples of all earlier rays: the running sum less the ray's own count. -/
def offsets (a1 : IVec S8388608 32) : IVec S65536 32 :=
  subi (cumCounts a1) (counts a1)

/-- Each sample's slot within its ray: its own index less its ray's offset. -/
def slot (a1 : IVec S8388608 32) : IVec S8388608 32 :=
  subi (iotaInDim S8388608 32 0)
    (Host.gather gather_S65536_S8388608x1_S8388608_n_0_n_n_0_1_1 (offsets a1) (rayCol a1))

/-- The slot, a negative one moved up by the number of slots. -/
def slotWrapped (a1 : IVec S8388608 32) : IVec S8388608 32 :=
  select (cmpi .slt (slot a1) (broadcastInDim S8388608 ![] bcast_S_S8388608 (constantI S_ 32 0#32)))
    (addi (slot a1) (broadcastInDim S8388608 ![] bcast_S_S8388608 (constantI S_ 32 256#32))) (slot a1)

/-- The two-column index table (ray, slot) the dense tables are written at. -/
def idx2 (a1 : IVec S8388608 32) : IVec S8388608x2 32 :=
  concatenate S8388608x2 1
    [⟨S8388608x1, rayCol a1⟩,
     ⟨S8388608x1, broadcastInDim S8388608x1 ![0] bcast_S8388608_S8388608x1_0 (slotWrapped a1)⟩]
    concatenates_S8388608x1_S8388608x1_S8388608x2_d1

/-- Per ray, the number of its samples capped at the number of slots. -/
def numSamps (a1 : IVec S8388608 32) : IVec S65536 32 :=
  minsi (counts a1) (broadcastInDim S65536 ![] bcast_S_S65536 (constantI S_ 32 256#32))

/-- The 65536 × 256 table of zeros the dense tables start from. -/
def zeros256 : FVec F S65536x256 .f32 :=
  broadcastInDim S65536x256 ![] bcast_S_S65536x256 (constant S_ .f32 0x00000000#32)

/-! ## The four results -/

/-- The positions table: origin + midpoint · direction, both read at the sample's ray, then a column of zeros. -/
def res25 (a0 : FVec F S65536x6 .f32) (a1 : IVec S8388608 32) (a2 a3 : FVec F S8388608 .f32) : FVec F S8388608x4 .f32 :=
  concatenate S8388608x4 1
    [⟨S8388608x3,
        addf (Host.gather gather_S65536x3_S8388608x1_S8388608x3_1_0_n_n_0_1_13 (org a0) (rayCol a1))
          (mulf
            (broadcastInDim S8388608x3 ![0, 1] bcast_S8388608x1_S8388608x3_0_1
              (broadcastInDim S8388608x1 ![0] bcast_S8388608_S8388608x1_0 (pz a2 a3)))
            (Host.gather gather_S65536x3_S8388608x1_S8388608x3_1_0_n_n_0_1_13 (dir a0) (rayCol a1)))⟩,
     ⟨S8388608x1, broadcastInDim S8388608x1 ![] bcast_S_S8388608x1 (constant S_ .f32 0x00000000#32)⟩]
    concatenates_S8388608x3_S8388608x1_S8388608x4_d1

/-- The flags: slot q of ray r is set when q is below the ray's capped count. -/
def res48 (a1 : IVec S8388608 32) : IVec S65536x256 1 :=
  cmpi .slt
    (broadcastInDim S65536x256 ![0, 1] bcast_S1x256_S65536x256_0_1
      (broadcastInDim S1x256 ![1] bcast_S256_S1x256_1 (iotaInDim S256 32 0)))
    (broadcastInDim S65536x256 ![0, 1] bcast_S65536x1_S65536x256_0_1
      (broadcastInDim S65536x1 ![0] bcast_S65536_S65536x1_0 (numSamps a1)))

/-- The dense midpoints: each sample's midpoint written at (its ray, its slot) over zeros. -/
def res63 (a1 : IVec S8388608 32) (a2 a3 : FVec F S8388608 .f32) : FVec F S65536x256 .f32 :=
  Host.scatter scatter_S65536x256_S8388608x2_S8388608_n_01_01_1 (fun _ b => b) zeros256 (idx2 a1) (pz a2 a3)

/-- The dense lengths: each sample's length written at (its ray, its slot) over zeros. -/
def res78 (a1 : IVec S8388608 32) (a2 a3 : FVec F S8388608 .f32) : FVec F S65536x256 .f32 :=
  Host.scatter scatter_S65536x256_S8388608x2_S8388608_n_01_01_1 (fun _ b => b) zeros256 (idx2 a1) (pd a2 a3)

/-! ## The reads

The fold unrolled, each operation's result at its own buffer is its function of the contents before it, and at
any other buffer what was there (the references told apart by computation); what remains is the composed term,
equal to the definitions above by unfolding them. The rewriting does not reach inside the operand list of a
concatenation, so the two dense tables, whose index table is one, are read column by column (`scatter2_congr`). -/

attribute [local irreducible] Host.gather Host.scatter Host.reduceWindow

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem v25_eq (V : Valuation τ sig (Elt F)) :
    after ops V (main_v25 : DevRef τ sig)
      = res25 (V (main_arg0 : DevRef τ sig)) (V (main_arg1 : DevRef τ sig)) (V (main_arg2 : DevRef τ sig))
          (V (main_arg3 : DevRef τ sig)) := by
  after_results_simp
  rfl

theorem v48_eq (V : Valuation τ sig (Elt F)) :
    after ops V (main_v48 : DevRef τ sig) = res48 (V (main_arg1 : DevRef τ sig)) := by
  after_results_simp
  rfl

/-- The windowed sum as the called function states it is the windowed sum of the counts themselves. The called
    function's three operations are stated over typed references to the call's buffers, and move contents along the
    equality of each buffer's type with its value's; at these literal references that equality holds by computation
    and the move is the identity. Stated with the counts a variable, so that the identity is checked once, on a
    small term, and the reads below rewrite with it instead of computing through it. -/
theorem cum_cast (x : IVec S65536 32) :
    (TRef.of main_v30 : TRef sig ⟨S65536, .i32⟩).toBuf (Val := Elt F)
      (Host.reduceWindow IntOp.addi ![65536] ![1] ![65535] ![0]
        ((TRef.of main_v29 : TRef sig ⟨S65536, .i32⟩).ofBuf x)
        ((TRef.of main_call0_call0_v0 : TRef sig ⟨S_, .i32⟩).ofBuf
          ((TRef.of main_call0_call0_v0 : TRef sig ⟨S_, .i32⟩).toBuf
            (broadcastInDim S_ ![] bcast_S_S_
              ((TRef.of main_call0_call0_c : TRef sig ⟨S_, .i32⟩).ofBuf
                ((TRef.of main_call0_call0_c : TRef sig ⟨S_, .i32⟩).toBuf (constantI S_ 32 0#32))))))
        reduceWindows_S65536_S65536_w65536s1p65535_0 h_S_)
    = Host.reduceWindow IntOp.addi ![65536] ![1] ![65535] ![0] x
        (broadcastInDim S_ ![] bcast_S_S_ (constantI S_ 32 0#32))
        reduceWindows_S65536_S65536_w65536s1p65535_0 h_S_ := rfl

/-- Two dense tables written at two-column index tables agree when the tables they start from, the two columns and
    the values written agree. It lets a read of such a table be taken apart column by column: the fold of the
    operations is rewritten at each column separately, at the top of its own goal. -/
theorem scatter2_congr {Z Z' : FVec F S65536x256 .f32} {A B A' B' : IVec S8388608x1 32} {U U' : FVec F S8388608 .f32}
    (hZ : Z = Z') (hA : A = A') (hB : B = B') (hU : U = U') :
    Host.scatter scatter_S65536x256_S8388608x2_S8388608_n_01_01_1 (fun _ b => b) Z
        (concatenate S8388608x2 1 [⟨S8388608x1, A⟩, ⟨S8388608x1, B⟩] concatenates_S8388608x1_S8388608x1_S8388608x2_d1) U
      = Host.scatter scatter_S65536x256_S8388608x2_S8388608_n_01_01_1 (fun _ b => b) Z'
          (concatenate S8388608x2 1 [⟨S8388608x1, A'⟩, ⟨S8388608x1, B'⟩] concatenates_S8388608x1_S8388608x1_S8388608x2_d1) U' := by
  subst hZ hA hB hU
  rfl

theorem v63_eq (V : Valuation τ sig (Elt F)) :
    after ops V (main_v63 : DevRef τ sig)
      = res63 (V (main_arg1 : DevRef τ sig)) (V (main_arg2 : DevRef τ sig)) (V (main_arg3 : DevRef τ sig)) := by
  after_results_simp
  refine scatter2_congr rfl ?_ ?_ rfl
  · after_results_simp
    rfl
  · after_results_simp
    rw [cum_cast]
    rfl

theorem v78_eq (V : Valuation τ sig (Elt F)) :
    after ops V (main_v78 : DevRef τ sig)
      = res78 (V (main_arg1 : DevRef τ sig)) (V (main_arg2 : DevRef τ sig)) (V (main_arg3 : DevRef τ sig)) := by
  after_results_simp
  refine scatter2_congr rfl ?_ ?_ rfl
  · after_results_simp
    rfl
  · after_results_simp
    rw [cum_cast]
    rfl

end Cert.ReferenceIdeal.HandVals

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Bridge.lean ====
/-
  The integer bookkeeping of the idealized kernel program and of the reference is one computation: the same
  operations on the ray index of every sample, each program spelling them with its own constants.  So the counts, the
  slots and the (ray, slot) pairs agree as whole arrays, and with them the two scatters.  The mask agrees entry by
  entry: the kernel program's word at (r, q) is 1 exactly when q is below the ray's number of valid slots, and a
  one-bit value widened to a word is non-zero exactly when the bit is set.
-/
import proofs.«176005_j39625368272911_1_alg».proof.Proof.KernelVals
import proofs.«176005_j39625368272911_1_alg».proof.Proof.RefVals
import proofs.«176005_j39625368272911_1_alg».proof.Proof.Spec
import proofs.«176005_j39625368272911_1_alg».proof.Proof.LibBcast
import proofs.«176005_j39625368272911_1_alg».proof.Proof.LibRowOps

set_option maxRecDepth 16384

noncomputable section

namespace Cert.BridgeInt

open Idealize.ShloMosaic Idealize.ShloMosaic.ValueIdx

attribute [local irreducible] Host.reduceWindow Host.gather Host.scatter concatenate

variable {F : FTy → Type} [FloatOps F]

/-! ## The bookkeeping, array by array -/

theorem rayCol_eq (a1 : IVec ⟨1, ![8388608]⟩ 32) :
    Cert.KernelIdeal.Vals.rayCol a1 = Cert.ReferenceIdeal.HandVals.rayCol a1 := rfl

theorem counts_eq (a1 : IVec ⟨1, ![8388608]⟩ 32) :
    Cert.KernelIdeal.Vals.counts a1 = Cert.ReferenceIdeal.HandVals.counts a1 := rfl

theorem slot_eq (a1 : IVec ⟨1, ![8388608]⟩ 32) :
    Cert.KernelIdeal.Vals.slot a1 = Cert.ReferenceIdeal.HandVals.slot a1 := rfl

theorem pairs_eq (a1 : IVec ⟨1, ![8388608]⟩ 32) :
    Cert.KernelIdeal.Vals.pairs a1 (Cert.KernelIdeal.Vals.slot a1) = Cert.ReferenceIdeal.HandVals.idx2 a1 := rfl

/-- The kernel program's scatter of one value per sample is the reference's. -/
theorem scatter_eq (a1 : IVec ⟨1, ![8388608]⟩ 32) (u : FVec F ⟨1, ![8388608]⟩ .f32) :
    Cert.KernelIdeal.Vals.scatterAt a1 (Cert.KernelIdeal.Vals.slot a1) u
      = Host.scatter Cert.ReferenceIdeal.scatter_S65536x256_S8388608x2_S8388608_n_01_01_1 (fun _ b => b)
          Cert.ReferenceIdeal.HandVals.zeros256 (Cert.ReferenceIdeal.HandVals.idx2 a1) u := rfl

/-! ## The mask, entry by entry -/

/-- A bit widened to a word is non-zero exactly when the bit is set. -/
theorem ne_zero_of_bit : ∀ b : BitVec 1, IntOp.cmpi .ne (b.setWidth 32) 0#32 = b := by decide

/-- The kernel program's mask is the reference's. -/
theorem valid_eq (a1 : IVec ⟨1, ![8388608]⟩ 32) :
    cmpi .ne (Cert.Spec.validWords (Cert.KernelIdeal.Vals.numSampsOf (Cert.KernelIdeal.Vals.counts a1)))
        (broadcastInDim Cert.KernelIdeal.S65536x256 ![] Cert.KernelIdeal.Gen.bcast_S_S65536x256 (constantI Cert.KernelIdeal.S_ 32 0#32))
      = Cert.ReferenceIdeal.HandVals.res48 a1 := by
  funext i
  obtain ⟨r, q, rfl⟩ : ∃ (r : Fin 65536) (q : Fin 256), i = ix2 r q := ⟨i 0, i 1, eq_ix2 i⟩
  -- the ray's number of valid slots, on either side: the count capped at 256
  have hK : Cert.KernelIdeal.Vals.numSampsOf (Cert.KernelIdeal.Vals.counts a1) (ix2 r (0 : Fin 1))
      = IntOp.minsi (Cert.ReferenceIdeal.HandVals.counts a1 (ix1 r)) 256#32 := by
    unfold Cert.KernelIdeal.Vals.numSampsOf
    refine (Cert.LibRowOps.shapeCast_a_a1_apply _ _ r 0).trans ?_
    rw [counts_eq]
    exact congrArg (IntOp.minsi (Cert.ReferenceIdeal.HandVals.counts a1 (ix1 r))) (Cert.LibBcast.bcastScalar_apply _ _ _)
  have hR : broadcastInDim Cert.ReferenceIdeal.S65536x256 ![0, 1] Cert.ReferenceIdeal.Gen.bcast_S65536x1_S65536x256_0_1
        (broadcastInDim Cert.ReferenceIdeal.S65536x1 ![0] Cert.ReferenceIdeal.Gen.bcast_S65536_S65536x1_0 (Cert.ReferenceIdeal.HandVals.numSamps a1)) (ix2 r q)
      = IntOp.minsi (Cert.ReferenceIdeal.HandVals.counts a1 (ix1 r)) 256#32 := by
    refine (Cert.LibBcast.bcastCol_apply _ _ r q).trans ((Cert.LibBcast.bcastVecCol_apply _ _ r 0).trans ?_)
    unfold Cert.ReferenceIdeal.HandVals.numSamps
    exact congrArg (IntOp.minsi (Cert.ReferenceIdeal.HandVals.counts a1 (ix1 r))) (Cert.LibBcast.bcastScalar_apply _ _ _)
  -- the slot, as the reference lays it out
  have hQ : broadcastInDim Cert.ReferenceIdeal.S65536x256 ![0, 1] Cert.ReferenceIdeal.Gen.bcast_S1x256_S65536x256_0_1
        (broadcastInDim Cert.ReferenceIdeal.S1x256 ![1] Cert.ReferenceIdeal.Gen.bcast_S256_S1x256_1 (iotaInDim Cert.ReferenceIdeal.S256 32 0)) (ix2 r q)
      = BitVec.ofNat 32 q.val :=
    (Cert.LibBcast.bcastRow_apply _ _ r q).trans (Cert.LibBcast.bcastVecRow_apply _ _ 0 q)
  have hZ : broadcastInDim Cert.KernelIdeal.S65536x256 ![] Cert.KernelIdeal.Gen.bcast_S_S65536x256 (constantI Cert.KernelIdeal.S_ 32 0#32) (ix2 r q) = 0#32 :=
    Cert.LibBcast.bcastScalar_apply _ _ _
  show IntOp.cmpi .ne (Cert.Spec.validWords _ (ix2 r q)) _ = IntOp.cmpi .slt _ _
  rw [hZ, hQ, hR, Cert.Spec.validWords_ix2]
  unfold Cert.Spec.validAt
  rw [hK]
  exact ne_zero_of_bit _

end Cert.BridgeInt
end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.BridgeCols.lean ====
/-
  The midpoint and length columns, on the two sides.

  On the kernel side the start and end distances are laid side by side as a two-column table; the
  midpoint / length table of that table has the midpoint (start + end) · ½ in column 0 and the
  length end − start in column 1, and each column is taken out as a vector.  On the reference side
  the midpoints and the lengths are computed directly on the two vectors.  Sample by sample they
  are the same extended reals: the same sum times the same ½, the same difference.
-/
import proofs.«176005_j39625368272911_1_alg».proof.Proof.KernelVals
import proofs.«176005_j39625368272911_1_alg».proof.Proof.RefVals
import proofs.«176005_j39625368272911_1_alg».proof.Proof.Spec
import proofs.«176005_j39625368272911_1_alg».proof.Proof.LibBcast
import proofs.«176005_j39625368272911_1_alg».proof.Proof.LibRowOps
import proofs.«176005_j39625368272911_1_alg».proof.Proof.LibGraphOps
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Gen Idealize.ShloMosaic Idealize.ShloMosaic.ValueIdx

/-- The start and end distances side by side. -/
abbrev tseOf (a2 a3 : FVec Ideal S8388608 .f32) : FVec Ideal S8388608x2 .f32 :=
  concatenate S8388608x2 1
    [⟨S8388608x1, broadcastInDim S8388608x1 ![0] bcast_S8388608_S8388608x1_0 a2⟩,
     ⟨S8388608x1, broadcastInDim S8388608x1 ![0] bcast_S8388608_S8388608x1_0 a3⟩]
    concatenates_S8388608x1_S8388608x1_S8388608x2_d1

/-- Column 0 of the side-by-side table is the start distance. -/
theorem tse_start (a2 a3 : FVec Ideal S8388608 .f32) (p : Fin 8388608) :
    tseOf a2 a3 (ix2 p (0 : Fin 2)) = a2 (ix1 p) :=
  (Cert.LibRowOps.concat2_apply_0 _ _ concatenates_S8388608x1_S8388608x1_S8388608x2_d1 p (0 : Fin 2) (0 : Fin 1) rfl).trans
    (Cert.LibBcast.bcastVecCol_apply a2 bcast_S8388608_S8388608x1_0 p 0)

/-- Column 1 of the side-by-side table is the end distance. -/
theorem tse_end (a2 a3 : FVec Ideal S8388608 .f32) (p : Fin 8388608) :
    tseOf a2 a3 (ix2 p (1 : Fin 2)) = a3 (ix1 p) :=
  (Cert.LibRowOps.concat2_apply_1 _ _ concatenates_S8388608x1_S8388608x1_S8388608x2_d1 p (1 : Fin 2) (0 : Fin 1) rfl).trans
    (Cert.LibBcast.bcastVecCol_apply a3 bcast_S8388608_S8388608x1_0 p 0)

/-- The midpoint of sample `p` of the side-by-side table. -/
theorem mid_tse (a2 a3 : FVec Ideal S8388608 .f32) (p : Fin 8388608) :
    Cert.Spec.mid (tseOf a2 a3) p = (a2 (ix1 p) + a3 (ix1 p)) * Cert.Spec.half := by
  unfold Cert.Spec.mid
  rw [tse_start, tse_end]

/-- The length of sample `p` of the side-by-side table. -/
theorem len_tse (a2 a3 : FVec Ideal S8388608 .f32) (p : Fin 8388608) :
    Cert.Spec.len (tseOf a2 a3) p = a3 (ix1 p) - a2 (ix1 p) := by
  unfold Cert.Spec.len
  rw [tse_start, tse_end]

/-- The reference's midpoint of sample `p`. -/
theorem pz_apply (a2 a3 : FVec Ideal S8388608 .f32) (p : Fin 8388608) :
    Cert.ReferenceIdeal.HandVals.pz a2 a3 (ix1 p) = (a2 (ix1 p) + a3 (ix1 p)) * Cert.Spec.half := by
  show (a2 (ix1 p) + a3 (ix1 p)) * _ = _
  rw [Cert.LibBcast.bcastScalar_apply]
  rfl

/-- One column of a two-column table taken out as a vector, read at a sample. -/
theorem column_apply (o : Fin 2 → Nat) (h : S8388608x2.Slices o S8388608x1) (x : FVec Ideal S8388608x2 .f32)
    (p : Fin 8388608) (q : Fin 2) (ho : o 0 = 0) (hq : q.val = o 1) :
    Cert.KernelIdeal.Vals.column o h x (ix1 p) = x (ix2 p q) := by
  unfold Cert.KernelIdeal.Vals.column
  refine (shapeCast_apply _ shapeCasts_S8388608x1_S8388608 (ix1 p) (ix2 p (0 : Fin 1)) ?_).trans ?_
  · rw [Shape.rowMajor_val_two, Shape.rowMajor_val_one]
    show p.val * 1 + 0 = p.val
    omega
  · refine extractStridedSlice_apply o x h (ix2 p (0 : Fin 1)) (ix2 p q) (fun a => ?_)
    match a with
    | ⟨0, _⟩ => show p.val = o 0 + p.val; omega
    | ⟨1, _⟩ => show q.val = o 1 + 0; omega

/-- Column 0 of the midpoint / length table of the side-by-side distances is the reference's midpoints. -/
theorem col0_bridge (a2 a3 : FVec Ideal S8388608 .f32) :
    Cert.KernelIdeal.Vals.column ![0, 0] slices_S8388608x2_S8388608x1_0_0 (Cert.Spec.pzpdOf (tseOf a2 a3))
      = Cert.ReferenceIdeal.HandVals.pz a2 a3 := by
  funext i
  obtain ⟨p, rfl⟩ : ∃ p : Fin 8388608, i = ix1 p := ⟨i 0, eq_ix1 i⟩
  rw [column_apply ![0, 0] _ _ p (0 : Fin 2) rfl rfl, pz_apply]
  show Cert.Spec.mid (tseOf a2 a3) p = _
  exact mid_tse a2 a3 p

/-- Column 1 of the midpoint / length table of the side-by-side distances is the reference's lengths. -/
theorem col1_bridge (a2 a3 : FVec Ideal S8388608 .f32) :
    Cert.KernelIdeal.Vals.column ![0, 1] slices_S8388608x2_S8388608x1_0_1 (Cert.Spec.pzpdOf (tseOf a2 a3))
      = Cert.ReferenceIdeal.HandVals.pd a2 a3 := by
  funext i
  obtain ⟨p, rfl⟩ : ∃ p : Fin 8388608, i = ix1 p := ⟨i 0, eq_ix1 i⟩
  rw [column_apply ![0, 1] _ _ p (1 : Fin 2) rfl rfl]
  show Cert.Spec.len (tseOf a2 a3) p = a3 (ix1 p) - a2 (ix1 p)
  exact len_tse a2 a3 p

end Cert.Bridge

end
-- ==== Proof.BridgeXyz.lean ====
/-
  The positions table, on the two sides.

  The kernel side gathers whole six-column ray rows at the samples' wrapped ray indices and forms,
  per sample, origin + midpoint · direction from columns 0–2 and 3–5 of the gathered row, with a
  fourth column of zeros.  The reference side first splits the ray table into origins and
  directions, gathers each at the same indices, and forms the same sum, then appends the zero
  column.  Entry by entry both read the ray table at the same row (the sample's wrapped ray index
  clamped into the table) and the same two columns, and the same midpoint (start + end) · ½, combined
  by the same operations in the same order; the last column is the same zero word.
-/
import proofs.«176005_j39625368272911_1_alg».proof.Proof.KernelVals
import proofs.«176005_j39625368272911_1_alg».proof.Proof.RefVals
import proofs.«176005_j39625368272911_1_alg».proof.Proof.Spec
import proofs.«176005_j39625368272911_1_alg».proof.Proof.LibBcast
import proofs.«176005_j39625368272911_1_alg».proof.Proof.LibRowOps
import proofs.«176005_j39625368272911_1_alg».proof.Proof.LibGraphOps
import proofs.«176005_j39625368272911_1_alg».proof.Proof.BridgeCols
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Gen Idealize.ShloMosaic Idealize.ShloMosaic.ValueIdx

/-- The two programs wrap the ray indices by the same operations. -/
theorem rayCol_eq (a1 : IVec S8388608 32) :
    Cert.KernelIdeal.Vals.rayCol a1 = Cert.ReferenceIdeal.HandVals.rayCol a1 := rfl

/-- The row of the ray table that sample `p` reads: its wrapped ray index, clamped into the table. -/
def rayOf (a1 : IVec S8388608 32) (p : Fin 8388608) : Fin 65536 :=
  Cert.LibGraph.clampIdx 65536 (by decide) (Cert.KernelIdeal.Vals.rayCol a1 (ix2 p (0 : Fin 1)))

/-- The kernel side's gathered ray rows, at sample `p`, column `j`. -/
theorem rays_apply (a0 : FVec Ideal S65536x6 .f32) (a1 : IVec S8388608 32) (p : Fin 8388608) (j : Fin 6) :
    Host.gather gather_S65536x6_S8388608x1_S8388608x6_1_0_n_n_0_1_16 a0 (Cert.KernelIdeal.Vals.rayCol a1) (ix2 p j)
      = a0 (ix2 (rayOf a1 p) j) :=
  Cert.LibGraph.gatherRows_apply (N := 65536) (J := 6) (E := 8388608) (by decide)
    gather_S65536x6_S8388608x1_S8388608x6_1_0_n_n_0_1_16_wf a0 (Cert.KernelIdeal.Vals.rayCol a1) p j

/-- The reference side's gathered origins, at sample `p`, column `j`. -/
theorem org_apply (a0 : FVec Ideal S65536x6 .f32) (a1 : IVec S8388608 32) (p : Fin 8388608) (j : Fin 3) :
    Host.gather Cert.ReferenceIdeal.gather_S65536x3_S8388608x1_S8388608x3_1_0_n_n_0_1_13
        (Cert.ReferenceIdeal.HandVals.org a0) (Cert.ReferenceIdeal.HandVals.rayCol a1) (ix2 p j)
      = a0 (ix2 (rayOf a1 p) (⟨j.val, by have := j.isLt; omega⟩ : Fin 6)) := by
  refine (Cert.LibGraph.gatherRows_apply (N := 65536) (J := 3) (E := 8388608) (by decide)
    Cert.ReferenceIdeal.Gen.gather_S65536x3_S8388608x1_S8388608x3_1_0_n_n_0_1_13_wf
    (Cert.ReferenceIdeal.HandVals.org a0) (Cert.ReferenceIdeal.HandVals.rayCol a1) p j).trans ?_
  unfold Cert.ReferenceIdeal.HandVals.org
  refine extractStridedSlice_apply _ a0 _ (ix2 (rayOf a1 p) j) (ix2 (rayOf a1 p) (⟨j.val, by have := j.isLt; omega⟩ : Fin 6)) (fun a => ?_)
  match a with
  | ⟨0, _⟩ => show (rayOf a1 p).val = 0 + (rayOf a1 p).val; omega
  | ⟨1, _⟩ => show j.val = 0 + j.val; omega

/-- The reference side's gathered directions, at sample `p`, column `j`. -/
theorem dir_apply (a0 : FVec Ideal S65536x6 .f32) (a1 : IVec S8388608 32) (p : Fin 8388608) (j : Fin 3) :
    Host.gather Cert.ReferenceIdeal.gather_S65536x3_S8388608x1_S8388608x3_1_0_n_n_0_1_13
        (Cert.ReferenceIdeal.HandVals.dir a0) (Cert.ReferenceIdeal.HandVals.rayCol a1) (ix2 p j)
      = a0 (ix2 (rayOf a1 p) (⟨j.val + 3, by have := j.isLt; omega⟩ : Fin 6)) := by
  refine (Cert.LibGraph.gatherRows_apply (N := 65536) (J := 3) (E := 8388608) (by decide)
    Cert.ReferenceIdeal.Gen.gather_S65536x3_S8388608x1_S8388608x3_1_0_n_n_0_1_13_wf
    (Cert.ReferenceIdeal.HandVals.dir a0) (Cert.ReferenceIdeal.HandVals.rayCol a1) p j).trans ?_
  unfold Cert.ReferenceIdeal.HandVals.dir
  refine extractStridedSlice_apply _ a0 _ (ix2 (rayOf a1 p) j) (ix2 (rayOf a1 p) (⟨j.val + 3, by have := j.isLt; omega⟩ : Fin 6)) (fun a => ?_)
  match a with
  | ⟨0, _⟩ => show (rayOf a1 p).val = 0 + (rayOf a1 p).val; omega
  | ⟨1, _⟩ => show j.val + 3 = 3 + j.val; omega

/-- The reference side's midpoint column repeated along three columns, at sample `p`. -/
theorem bpz_apply (a2 a3 : FVec Ideal S8388608 .f32) (p : Fin 8388608) (j : Fin 3) :
    broadcastInDim Cert.ReferenceIdeal.S8388608x3 ![0, 1] Cert.ReferenceIdeal.Gen.bcast_S8388608x1_S8388608x3_0_1
        (broadcastInDim Cert.ReferenceIdeal.S8388608x1 ![0] Cert.ReferenceIdeal.Gen.bcast_S8388608_S8388608x1_0
          (Cert.ReferenceIdeal.HandVals.pz a2 a3)) (ix2 p j)
      = (a2 (ix1 p) + a3 (ix1 p)) * Cert.Spec.half :=
  (Cert.LibBcast.bcastCol_apply _ Cert.ReferenceIdeal.Gen.bcast_S8388608x1_S8388608x3_0_1 p j).trans
    ((Cert.LibBcast.bcastVecCol_apply _ Cert.ReferenceIdeal.Gen.bcast_S8388608_S8388608x1_0 p 0).trans (pz_apply a2 a3 p))

/-- The positions table of the gathered ray rows and the side-by-side distances is the reference's positions table. -/
theorem xyz_bridge (a0 : FVec Ideal S65536x6 .f32) (a1 : IVec S8388608 32) (a2 a3 : FVec Ideal S8388608 .f32) :
    Cert.Spec.xyzOf
        (Host.gather gather_S65536x6_S8388608x1_S8388608x6_1_0_n_n_0_1_16 a0 (Cert.KernelIdeal.Vals.rayCol a1))
        (tseOf a2 a3)
      = Cert.ReferenceIdeal.HandVals.res25 a0 a1 a2 a3 := by
  funext i
  obtain ⟨p, q, rfl⟩ : ∃ (p : Fin 8388608) (q : Fin 4), i = ix2 p q := ⟨i 0, i 1, eq_ix2 i⟩
  show Cert.Spec.xyzAt _ _ p q = _
  unfold Cert.Spec.xyzAt Cert.ReferenceIdeal.HandVals.res25
  by_cases h : q.val < 3
  · rw [dif_pos h]
    refine Eq.trans ?_ (Cert.LibRowOps.concat2_apply_0 _ _ Cert.ReferenceIdeal.Gen.concatenates_S8388608x3_S8388608x1_S8388608x4_d1
      p q (⟨q.val, h⟩ : Fin 3) rfl).symm
    show _ = Host.gather Cert.ReferenceIdeal.gather_S65536x3_S8388608x1_S8388608x3_1_0_n_n_0_1_13
          (Cert.ReferenceIdeal.HandVals.org a0) (Cert.ReferenceIdeal.HandVals.rayCol a1) (ix2 p (⟨q.val, h⟩ : Fin 3))
        + broadcastInDim Cert.ReferenceIdeal.S8388608x3 ![0, 1] Cert.ReferenceIdeal.Gen.bcast_S8388608x1_S8388608x3_0_1
            (broadcastInDim Cert.ReferenceIdeal.S8388608x1 ![0] Cert.ReferenceIdeal.Gen.bcast_S8388608_S8388608x1_0
              (Cert.ReferenceIdeal.HandVals.pz a2 a3)) (ix2 p (⟨q.val, h⟩ : Fin 3))
          * Host.gather Cert.ReferenceIdeal.gather_S65536x3_S8388608x1_S8388608x3_1_0_n_n_0_1_13
              (Cert.ReferenceIdeal.HandVals.dir a0) (Cert.ReferenceIdeal.HandVals.rayCol a1) (ix2 p (⟨q.val, h⟩ : Fin 3))
    rw [rays_apply, rays_apply, mid_tse, org_apply, dir_apply, bpz_apply]
  · rw [dif_neg h]
    have hq : q.val = 3 := by have := q.isLt; omega
    refine Eq.trans ?_ (Cert.LibRowOps.concat2_apply_1 _ _ Cert.ReferenceIdeal.Gen.concatenates_S8388608x3_S8388608x1_S8388608x4_d1
      p q (0 : Fin 1) (by show 3 + 0 = q.val; omega)).symm
    symm
    refine (Cert.LibBcast.bcastScalar_apply _ Cert.ReferenceIdeal.Gen.bcast_S_S8388608x1 (ix2 p (0 : Fin 1))).trans ?_
    rfl

end Cert.Bridge

end
-- ==== Proof.lean ====
/-
  The certificate of the ray-sample kernel against its reference.

  The kernel program gathers, per sample, the row of the ray table its ray index names, lays the start and end
  distances side by side, and in a first tiled pass over the samples computes the sample's midpoint (start + end) · ½,
  its length end − start, and its position origin + midpoint · direction (with a fourth column of zeros); from the
  ray indices alone it computes each ray's sample count, each sample's slot within its ray, and in a second tiled pass
  the mask "slot below the ray's count, at most 256"; and it stores the midpoints and the lengths into two tables of
  zeros at the samples' (ray, slot) pairs.  The reference computes the same four results with host operations only.

  The three frames: the two kernel programs' are the generated launch of their segments; the reference's is its run as a
  line of host operations with the results dropped.  The idealization rewrote nothing.  The value claim: the positions
  agree entry by entry (the same sums and products in the same order, on the same gathered rows — no law of arithmetic
  is needed beyond reading both layouts at an entry, so the finiteness of the inputs is not used); the mask agrees
  entry by entry (a bit widened to a word is non-zero exactly when it is set); and the two dense tables agree because
  the index arrays are one computation of the ray indices in both programs and the stored values, the two columns of the
  first pass's second result, are the reference's midpoints and lengths.
-/
import proofs.«176005_j39625368272911_1_alg».proof.Defs
import proofs.«176005_j39625368272911_1_alg».proof.Proof.Gen.Kernel
import proofs.«176005_j39625368272911_1_alg».proof.Proof.Gen.Kernel.Frame
import proofs.«176005_j39625368272911_1_alg».proof.Proof.Gen.KernelIdeal
import proofs.«176005_j39625368272911_1_alg».proof.Proof.Gen.KernelIdeal.Frame
import proofs.«176005_j39625368272911_1_alg».proof.Proof.Gen.ReferenceIdeal
import proofs.«176005_j39625368272911_1_alg».proof.Proof.Gen.Pre_finite_inputs
import proofs.«176005_j39625368272911_1_alg».proof.Proof.KernelRun
import proofs.«176005_j39625368272911_1_alg».proof.Proof.KernelRes
import proofs.«176005_j39625368272911_1_alg».proof.Proof.RefVals
import proofs.«176005_j39625368272911_1_alg».proof.Proof.Bridge
import proofs.«176005_j39625368272911_1_alg».proof.Proof.BridgeCols
import proofs.«176005_j39625368272911_1_alg».proof.Proof.BridgeXyz

noncomputable section

namespace Cert.Proof

open Idealize.ShloMosaic Idealize.ShloMosaic.TcCoe Idealize.SL.Sem Idealize.ShloMosaic.StableHlo

/-! ## The frames and the idealization -/

theorem frame_p : Cert.frame_Kernel := fun m ρ _ => Cert.Kernel.Gen.frame m ρ

theorem frame_pi : Cert.frame_KernelIdeal := fun m ρ _ => Cert.KernelIdeal.Gen.frame m ρ

/-- The reference runs as a line of host operations; none of them writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.HandVals.arg0_eq _),
      (h c Cert.ReferenceIdeal.main_arg1).trans (Cert.ReferenceIdeal.HandVals.arg1_eq _),
      (h c Cert.ReferenceIdeal.main_arg2).trans (Cert.ReferenceIdeal.HandVals.arg2_eq _),
      (h c Cert.ReferenceIdeal.main_arg3).trans (Cert.ReferenceIdeal.HandVals.arg3_eq _)⟩)
    (Cert.ReferenceIdeal.HandRun.run_main (F := Ideal) m ρ)

theorem preserves : Cert.preserves_Kernel_KernelIdeal := trivial

/-! ## The value claim -/

open Cert.KernelIdeal.Res Cert.KernelIdeal.Vals in
theorem algebraic : Cert.algebraic_KernelIdeal_ReferenceIdeal := by
  intro m ρ m' ρ' _ hagree
  refine ⟨fun c => Cert.KernelIdeal.Gen.W7 m ρ c (Proc.devRef .tc Cert.KernelIdeal.main_v10_0),
    fun c => Cert.KernelIdeal.Gen.W7 m ρ c (Proc.devRef .tc Cert.KernelIdeal.main_v36),
    fun c => Cert.KernelIdeal.Gen.W7 m ρ c (Proc.devRef .tc Cert.KernelIdeal.main_v51),
    fun c => Cert.KernelIdeal.Gen.W7 m ρ c (Proc.devRef .tc Cert.KernelIdeal.main_v66),
    Cert.KernelIdeal.RunVals.run_vals (F := Ideal) m ρ, ?_⟩
  refine (θ_run Cert.ReferenceIdeal.defs _ _).mono (fun r h c => ?_)
    (Cert.ReferenceIdeal.HandRun.run_main (F := Ideal) m' ρ')
  obtain ⟨h0, h1, h2, h3⟩ := hagree c
  have e0 : launchContents m' c (Cert.ReferenceIdeal.main_arg0 : DevRef Cert.ReferenceIdeal.τ Cert.ReferenceIdeal.sig) = m ((c : Thread Cert.KernelIdeal.nD Cert.KernelIdeal.τ).loc Cert.KernelIdeal.main_arg0) := h0
  have e1 : launchContents m' c (Cert.ReferenceIdeal.main_arg1 : DevRef Cert.ReferenceIdeal.τ Cert.ReferenceIdeal.sig) = m ((c : Thread Cert.KernelIdeal.nD Cert.KernelIdeal.τ).loc Cert.KernelIdeal.main_arg1) := h1
  have e2 : launchContents m' c (Cert.ReferenceIdeal.main_arg2 : DevRef Cert.ReferenceIdeal.τ Cert.ReferenceIdeal.sig) = m ((c : Thread Cert.KernelIdeal.nD Cert.KernelIdeal.τ).loc Cert.KernelIdeal.main_arg2) := h2
  have e3 : launchContents m' c (Cert.ReferenceIdeal.main_arg3 : DevRef Cert.ReferenceIdeal.τ Cert.ReferenceIdeal.sig) = m ((c : Thread Cert.KernelIdeal.nD Cert.KernelIdeal.τ).loc Cert.KernelIdeal.main_arg3) := h3
  refine ⟨?_, ?_, ?_, ?_, (h c Cert.ReferenceIdeal.main_arg0).trans (Cert.ReferenceIdeal.HandVals.arg0_eq _),
      (h c Cert.ReferenceIdeal.main_arg1).trans (Cert.ReferenceIdeal.HandVals.arg1_eq _),
      (h c Cert.ReferenceIdeal.main_arg2).trans (Cert.ReferenceIdeal.HandVals.arg2_eq _),
      (h c Cert.ReferenceIdeal.main_arg3).trans (Cert.ReferenceIdeal.HandVals.arg3_eq _)⟩
  · -- the positions
    refine (h c Cert.ReferenceIdeal.main_v25).trans ((Cert.ReferenceIdeal.HandVals.v25_eq _).trans ?_)
    rw [e0, e1, e2, e3]
    refine Eq.trans ?_ (res_xyz m ρ c).symm
    rw [entry_v6, entry_v9]
    exact (Cert.Bridge.xyz_bridge _ _ _ _).symm
  · -- the mask
    refine (h c Cert.ReferenceIdeal.main_v48).trans ((Cert.ReferenceIdeal.HandVals.v48_eq _).trans ?_)
    rw [e1]
    exact ((res_valid m ρ c).trans (Cert.BridgeInt.valid_eq _)).symm
  · -- the dense midpoints
    refine (h c Cert.ReferenceIdeal.main_v63).trans ((Cert.ReferenceIdeal.HandVals.v63_eq _).trans ?_)
    rw [e1, e2, e3]
    refine Eq.trans ?_ (res_z m ρ c).symm
    rw [entry_v9]
    exact ((Cert.BridgeInt.scatter_eq _ _).trans (congrArg _ (Cert.Bridge.col0_bridge _ _))).symm
  · -- the dense lengths
    refine (h c Cert.ReferenceIdeal.main_v78).trans ((Cert.ReferenceIdeal.HandVals.v78_eq _).trans ?_)
    rw [e1, e2, e3]
    refine Eq.trans ?_ (res_d m ρ c).symm
    rw [entry_v9]
    exact ((Cert.BridgeInt.scatter_eq _ _).trans (congrArg _ (Cert.Bridge.col1_bridge _ _))).symm

/-! ## The claim -/

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
